-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x384 : Shape := ⟨2, ![512, 384]⟩
abbrev S512 : Shape := ⟨1, ![512]⟩
abbrev S_ : Shape := ⟨0, ![]⟩

class Facts : Prop where
  bcast_S_S512x384 : S_.BroadcastsInDim S512x384 (![] : Fin 0 → Fin S512x384.rank)
  reducesTo_S512x384_S_d0_1 : S512x384.ReducesTo [0, 1] S_
  h_S_ : 0 < S_.numel

variable [Facts]

def fn {F : FTy → Type} [FloatOps F] (main_arg0 : FVec F S512x384 .f32) (main_arg1 : IVec S512 32) : IVec S_ 1 :=
  let main_v0 : FVec F S512x384 .f32 := Host.absf main_arg0
  let main_cst : FVec F S_ .f32 := constant S_ .f32 0x7F800000#32
  let main_v1 : FVec F S512x384 .f32 := broadcastInDim S512x384 ![] bcast_S_S512x384 main_cst
  let main_v2 : IVec S512x384 1 := cmpf .olt main_v0 main_v1
  let main_c : IVec S_ 1 := constantI S_ 1 1#1
  let main_v3 : IVec S_ 1 := (fun x v => Host.reduce IntOp.andi x v reducesTo_S512x384_S_d0_1 h_S_) main_v2 main_c
  main_v3
-- ==== Kernel.lean ====
abbrev S512x384 : Shape := ⟨2, ![512, 384]⟩
abbrev S512 : Shape := ⟨1, ![512]⟩
abbrev S512x512 : Shape := ⟨2, ![512, 512]⟩
abbrev S512x1 : Shape := ⟨2, ![512, 1]⟩
abbrev S384x512 : Shape := ⟨2, ![384, 512]⟩
abbrev S1x512 : Shape := ⟨2, ![1, 512]⟩
abbrev S128x128 : Shape := ⟨2, ![128, 128]⟩
abbrev S128x1x128 : Shape := ⟨3, ![128, 1, 128]⟩
abbrev S128x128x1 : Shape := ⟨3, ![128, 128, 1]⟩
abbrev S128x128x128 : Shape := ⟨3, ![128, 128, 128]⟩
abbrev S_ : Shape := ⟨0, ![]⟩

abbrev nBuf : Space → Nat
  | .hbm => 36
  | .vmem => 8
  | .smem => 0
  | _ => 0

abbrev bufTy : (tb : Table) → Fin (tcTables nBuf tb) → BufTy
  | .hbm, ⟨0, _⟩ => ⟨S512x384, .f32⟩
  | .hbm, ⟨1, _⟩ => ⟨S512, .i32⟩
  | .hbm, ⟨2, _⟩ => ⟨S512x512, .f32⟩
  | .hbm, ⟨3, _⟩ => ⟨S512x512, .f32⟩
  | .hbm, ⟨4, _⟩ => ⟨S512x1, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x384, .f32⟩
  | .local _ .vmem, ⟨1, _⟩ => ⟨S512x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x384_S512x384_0_0 : ∀ a, (![0, 0] : Fin 2 → Nat) a + S512x384.size a ≤ S512x384.size a
  h_S512x384 : 0 < S512x384.numel
  reduces_S512x384_S512 : S512x384.Reduces [1] S512
  shapeCasts_S512_S512x1 : S512.ShapeCasts S512x1
  transposes_S512x384_p1_0_S384x512 : S512x384.Transposes [1, 0] S384x512
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S128x128x1 : S128x128.ShapeCasts S128x128x1
  broadcasts_S128x1x128_S128x128x128 : S128x1x128.Broadcasts S128x128x128
  broadcasts_S128x128x1_S128x128x128 : S128x128x1.Broadcasts S128x128x128
  reduces_S128x128x128_S128x128 : S128x128x128.Reduces [1] S128x128
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  reducesTo_S512_S_d0 : S512.ReducesTo [0] S_
  dot_S512x384_S384x512_S512x512_1_0_0_1_n_n_wf : DotDims.WF S512x384 S384x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S512x384.size a
  hwx0_0 : ∀ i : grid0.Coords, EltTy.bits .f32 = 32 ∨ (Rect.block (s := S512x384) S512x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x512.size a
  hwx1_0 : ∀ i : grid1.Coords, EltTy.bits .f32 = 32 ∨ (Rect.block (s := S512x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x512.size a
  hwx1_2 : ∀ i : grid1.Coords, EltTy.bits .f32 = 32 ∨ (Rect.block (s := S512x512) S128x128.size (cc1_transform_2 i) (hinb1_2 i)).WholeWords (EltTy.packing .f32)

variable [Facts₀]

def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf

abbrev win0_0 : Pipeline.Window sig grid0 :=
  Pipeline.Window.ofSpec (Memref.whole main_arg0) S512x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x384 : Shape := ⟨2, ![512, 384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S384x512 : Shape := ⟨2, ![384, 512]⟩
abbrev S512x1x512 : Shape := ⟨3, ![512, 1, 512]⟩
abbrev S512x512x1 : Shape := ⟨3, ![512, 512, 1]⟩
abbrev S512x512x512 : Shape := ⟨3, ![512, 512, 512]⟩

abbrev nBuf : Space → Nat
  | .hbm => 70
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512, .i32⟩
  | .hbm, ⟨2, _⟩ => ⟨S512x384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S384x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x1, .i32⟩
  | .hbm, ⟨21, _⟩ => ⟨S1x512, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .f32⟩
  | .hbm, ⟨26, _⟩ => ⟨S512x1x512, .f32⟩
  | .hbm, ⟨27, _⟩ => ⟨S512x512x1, .f32⟩
  | .hbm, ⟨28, _⟩ => ⟨S512x512x512, .f32⟩
  | .hbm, ⟨29, _⟩ => ⟨S512x512x512, .f32⟩
  | .hbm, ⟨30, _⟩ => ⟨S512x512x512, .f32⟩
  | .hbm, ⟨31, _⟩ => ⟨S_, .f32⟩
  | .hbm, ⟨32, _⟩ => ⟨S512x512x512, .f32⟩
  | .hbm, ⟨33, _⟩ => ⟨S512x512x512, .f32⟩
  | .hbm, ⟨34, _⟩ => ⟨S512x512x512, .f32⟩
  | .hbm, ⟨35, _⟩ => ⟨S512x512x512, .f32⟩
  | .hbm, ⟨36, _⟩ => ⟨S_, .f32⟩
  | .hbm, ⟨37, _⟩ => ⟨S512x512x512, .f32⟩
  | .hbm, ⟨38, _⟩ => ⟨S512x512x512, .f32⟩
  | .hbm, ⟨39, _⟩ => ⟨S_, .f32⟩
  | .hbm, ⟨40, _⟩ => ⟨S512x512x512, .f32⟩
  | .hbm, ⟨41, _⟩ => ⟨S512x512x512, .f32⟩
  | .hbm, ⟨42, _⟩ => ⟨S_, .f32⟩
  | .hbm, ⟨43, _⟩ => ⟨S512x512, .f32⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S_, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_cst_13 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  reducesTo_S512x384_S512_d1 : S512x384.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x384_S384x512_1_0 : S512x384.Transposes [1, 0] S384x512
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S512x512_d1 : S512x512x512.ReducesTo [1] S512x512
  reducesTo_S512x512_S512_d1 : S512x512.ReducesTo [1] S512
  bcast_S_S512 : S_.BroadcastsInDim S512 (![] : Fin 0 → Fin S512.rank)
  reducesTo_S512_S_d0 : S512.ReducesTo [0] S_
  dot_S512x384_S384x512_S512x512_1_0_0_1_n_n_wf : DotDims.WF S512x384 S384x512 S512x512 [1] [0] [0] [1] [] []

variable [Facts₀]

def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf

class Facts : Prop extends Facts₀ where

variable [Facts]
-- ==== Proof.BitsBody0.lean ====
/-
  The first kernel region, the distance kernel, on a grid of one point: the whole feature matrix is staged, the body
  loads it, computes every pairwise distance and stores the whole distance matrix, which is written back.
  Here: what the body leaves in the output's staging buffer as a function of the staged features, the body's triple,
  and the region's proof data over the contents `V` the region is entered with.
-/
import proofs.«138343_j79577154060375_1_alg».proof.Proof.Gen.Kernel.Launch
import proofs.«138343_j79577154060375_1_alg».proof.Proof.Gen.Kernel.Skeleton
import proofs.«138343_j79577154060375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at the point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole feature block and the whole distance block, as the body's load and store name them. -/
abbrev rX : Rect S512x384 := Rect.unit (s := S512x384) ![0, 0] S512x384.size inb_S512x384_S512x384_0_0
abbrev rD : Rect S512x512 := Rect.unit (s := S512x512) ![0, 0] S512x512.size inb_S512x512_S512x512_0_0

/-- What the body leaves in the distance window's staging buffer: its one store, of the distances of the loaded features. -/
def out0_1 (x0 : Vec F S512x384 .f32) : Vec F S512x512 .f32 :=
  View.canon [⟨rD, k0_pay1 (View.ld x0 rX)⟩]

/-- The one store covers the buffer. -/
theorem cover0_1 (p0 : Vec F S512x512 .f32) (y : S512x512.Idx) :
    ∃ pc ∈ ([⟨rD, p0⟩] : List (View.Piece (Elt F) S512x512 .f32)), y ∈ pc.1.set :=
  View.cover_of_tiled [⟨rD, p0⟩] S512x512.size (by rfl) y

set_option maxHeartbeats 1000000 in
/-- The distance kernel's body on whole staging memrefs, the features' at contents `x0` and the distances' at anything,
    runs to the continuation holding the features as they were and the distances' buffer at `out0_1 x0`. -/
theorem sound_kernel0 (c : Dev nD) (E : Set ℕ) (i : grid0.Coords) (arg1 : Memref sig .tc .vmem S512x384 .f32) (harg1 : arg1.IsWhole)
    (arg2 : Memref sig .tc .vmem S512x512 .f32) (harg2 : arg2.IsWhole)
    (x0 : Vec F S512x384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- Region 0's proof data on core `c`: the arrays as the region finds them; after the body the features' buffer at
    its block and the distances' at `out0_1` of it; the invariant is the scoped rest and the generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at the point, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at the point: the features' memref holds its block, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at the point. -/
theorem body_obligation0 (c : Dev nD) : BodyObligation (dat0 (F := F) V c) (defs₀ (F := F)) Variants.none () Set.univ := fun t => by
  rw [bigSep_W0, bigSep_W0]
  exact sound_body0 V c t

end Region0

end Cert.Kernel.Launch

end
-- ==== Proof.BitsBody1.lean ====
/-
  The second kernel region, the rank kernel, on a grid of 4 × 4 × 4 points (q-block, g-block, g'-block; the last
  axis fastest). Two windows read 128 × 128 blocks of the ONE distance matrix — block (q, g) and block (q, g') —
  and the output window accumulates block (q, g) of the ranks over the four g'-blocks: at g' = 0 the body zeroes
  the output's buffer and adds that block's sums; at g' > 0 it adds to what the point before left; the block is
  written back after g' = 3.
  Here: the body's triple in its two cases, what the output's buffer holds point by point, the proof data (the two
  reading windows holding half a share of the distance matrix each) and the body obligation.
-/
import proofs.«138343_j79577154060375_1_alg».proof.Proof.Gen.Kernel.Launch
import proofs.«138343_j79577154060375_1_alg».proof.Proof.Gen.Kernel.Skeleton
import proofs.«138343_j79577154060375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A reading window's staging buffer holds its block at every point, fetched there or not (unfetched, its block index has
    not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's branch: it zeroes the accumulator exactly when the g'-coordinate is 0. -/
abbrev cond1_0 (i : grid1.Coords) : Prop := (Scalar.cmpi .ne (Scalar.extui (Scalar.cmpi .eq (BitVec.ofNat 32 (i 2).val) 0#32)) 0#32) = 1#1
/-- That is at the points ≡ 0 (mod 4), checked at each of the 64 grid points. -/
theorem hcond1_0 : ∀ t : Fin cfg1.N, cond1_0 (grid1.coords t) ↔ t.val % 4 = 0 :=
  (by decide +kernel : ∀ t : Fin grid1.N, cond1_0 (grid1.coords t) ↔ t.val % 4 = 0)

/-- One staging buffer of the output window, through which its contents are stated. -/
abbrev VO1_2 : View sig .tc .vmem S128x128 .f32 := (Memref.whole cc1_stg2_0 : Memref sig .tc .vmem S128x128 .f32).view
/-- Each window's current staging memref at point `t`, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)

set_option maxHeartbeats 1000000 in
/-- What the body's stores leave in the output's staging memref, as pieces (last first), when the accumulator is ZEROED
    first (g' = 0), with the proof that on whole staging memrefs — the two distance blocks at their contents, the output's
    at anything — the body runs to the continuation holding the inputs as they were and the output's buffer with the
    pieces written. -/
noncomputable def kernelRun1_A (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : cond1_0 i) (x0 x1 : Vec F S128x128 .f32) :
    { L2 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1__rank_kernel i arg3 harg3 arg4 harg4 arg5 harg5) K } := by
  refine ⟨?_, fun E K => ?run⟩
  case run =>
    simp only [cc1__rank_kernel_eq_skeleton]; unfold cc1__rank_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- The same when the accumulator is KEPT (g' > 0): the output's buffer enters at its running contents `xo`. -/
noncomputable def kernelRun1_B (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : ¬cond1_0 i) (x0 x1 : Vec F S128x128 .f32) (xo : Vec F S128x128 .f32) :
    { L2 : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1__rank_kernel i arg3 harg3 arg4 harg4 arg5 harg5) K } := by
  refine ⟨?_, fun E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- In either case the stores cover the output's block. -/
theorem cover1_A (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : cond1_0 i) (x0 x1 : Vec F S128x128 .f32) (y : S128x128.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S128x128.size (by sl_kernel_rfl) y
theorem cover1_B (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : ¬cond1_0 i) (x0 x1 xo : Vec F S128x128 .f32) (y : S128x128.Idx) :
    ∃ pc ∈ (kernelRun1_B c i arg3 harg3 arg4 harg4 arg5 harg5 hc0 x0 x1 xo).1, y ∈ pc.1.set :=
  View.cover_of_tiledL (kernelRun1_B c i arg3 harg3 arg4 harg4 arg5 harg5 hc0 x0 x1 xo).1 S128x128.size (by sl_kernel_rfl) y

/-- What each case leaves in the output's staging buffer: its pieces read back. -/
def out1_A (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : cond1_0 i) (x0 x1 : Vec F S128x128 .f32) : Vec F S128x128 .f32 :=
  VO1_2.read (Elt F) (VO1_2.writes (Elt F) VO1_2.junk (kernelRun1_A c i arg3 harg3 arg4 harg4 arg5 harg5 hc0 x0 x1).1)
def out1_B (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : ¬cond1_0 i) (x0 x1 xo : Vec F S128x128 .f32) : Vec F S128x128 .f32 :=
  VO1_2.read (Elt F) (VO1_2.writes (Elt F) VO1_2.junk (kernelRun1_B c i arg3 harg3 arg4 harg4 arg5 harg5 hc0 x0 x1 xo).1)

/-- THE ACCUMULATION: what the output's staging buffer holds after the body at position `n` — at g' = 0 the zeroing
    case over the point's two blocks, later the keeping case over what position `n − 1` left. -/
def outsAt1 (c : Dev nD) : (n : ℕ) → n < cfg1.N → Vec F S128x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 4 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 4 = 0) :
    outsAt1 V c t.val t.isLt = out1_A c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt = out1_B c (grid1.coords t) (ms1_0 t) (hs1_0 t) (ms1_1 t) (hs1_1 t) (ms1_2 t) (hs1_2 t) (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- Region 1's proof data on core `c`: the arrays as the region finds them; after the body each reading window's buffer
    at its block and the output's at the accumulation; the invariant is the scoped rest and the generator register; nothing
    owed; the two reading windows hold the left and the right half of the distance matrix's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At g' > 0 the output's staging buffer holds what the body left at the point before: the point is not the first and
    the buffer was not written back between. -/
theorem before1_2_B (c : Dev nD) (t : Fin cfg1.N) (h0 : ¬t.val % 4 = 0) (d) :
    (dat1 V c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the reading windows' memrefs hold their blocks; the point's g'-coordinate says which case it is
    in, and at g' > 0 the output's memref holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Launch

end
-- ==== Proof.BitsRun.lean ====
/-
  The run of the whole program: the two kernel regions and the host lines after them, as the segments of the
  several-regions launch. Between two items the core holds every unscoped buffer whole at a named valuation: the
  launch memory; then the distance matrix at what the first region's write-back leaves; then the rank matrix at
  what the second region's write-backs leave; then the host lines applied. The second region reads the ONE distance
  matrix through two windows, each holding half of its share, split at the region's entry and joined at its exit.
-/
import proofs.«138343_j79577154060375_1_alg».proof.Proof.Gen.Kernel.Launch
import proofs.«138343_j79577154060375_1_alg».proof.Proof.Gen.Kernel.Skeleton
import proofs.«138343_j79577154060375_1_alg».proof.Proof.Gen.Kernel.Points
import proofs.«138343_j79577154060375_1_alg».proof.Proof.Gen.Kernel.Regions
import proofs.«138343_j79577154060375_1_alg».proof.Proof.BitsBody0
import proofs.«138343_j79577154060375_1_alg».proof.Proof.BitsBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- What the first region is entered with: the launch memory. -/
abbrev VE0 (c : Dev nD) (b : Ref sig .tc) : Buf (Elt F) ((c : Thread nD τ).loc b) := Gen.V0 m c b

/-- What the first region leaves in the distance matrix's buffer. -/
def X0 (c : Dev nD) : Buf (Elt F) ((c : Thread nD τ).loc main_v0) := (dat0 (VE0 m) c).arrAt 1 cfg0.N

/-- The unscoped buffers after the first region, and the same read at the TensorCore's references: what the second region
    is entered with. -/
abbrev W1 (c : Dev nD) : Valuation τ sig (Elt F) := Function.update (Gen.V0 m c) main_v0 (X0 m c)
abbrev VE1 (c : Dev nD) (b : Ref sig .tc) : Buf (Elt F) ((c : Thread nD τ).loc b) := W1 m c b

/-- What the second region leaves in the rank matrix's buffer. -/
def X1 (c : Dev nD) : Buf (Elt F) ((c : Thread nD τ).loc main_v1) := (dat1 (VE1 m) c).arrAt 2 cfg1.N

/-- The regions' results by item: the distance matrix after the first region, the rank matrix after the second. -/
def outs : Gen.Outs (F := F) := fun J r c =>
  if h0 : r = main_v0 then h0 ▸ X0 m c
  else if h1 : r = main_v1 then h1 ▸ X1 m c
  else m ((c : Thread nD τ).loc r)

theorem outs_v0 (J : ℕ) (c : Dev nD) : outs m J main_v0 c = X0 m c := by
  unfold outs; rw [dif_pos rfl]
theorem outs_v1 (J : ℕ) (c : Dev nD) : outs m J main_v1 c = X1 m c := by
  unfold outs; rw [dif_neg (by decide), dif_pos rfl]

theorem V1_eq (c : Dev nD) : Gen.V1 m (outs m) c = W1 m c := by
  unfold Gen.V1 W1; rw [outs_v0]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

/-- At the first region's exit each of its arrays holds what the pipeline leaves, -/
theorem hF0 (c : Dev nD) (w : Fin cfg0.W) : (pdats m 0 c).arrAt w cfg0.N = Gen.V1 m (outs m) c (Pipeline.arrRef spec0 w) := by
  match w with
  | ⟨0, _⟩ =>
    refine ((pdats m 0 c).arrAt_in 0 rfl _).trans ?_
    exact (Gen.V1_of m (outs m) c main_arg0 (by decide)).symm
  | ⟨1, _⟩ =>
    show X0 m c = Function.update (Gen.V0 m c) main_v0 (outs m 1 main_v0 c) main_v0
    rw [Function.update_self, outs_v0]
/-- and every other buffer what it held at entry. -/
theorem hrest0 (c : Dev nD) : ∀ b, b ∉ Finset.univ.image (Pipeline.arrRef spec0) → Gen.V1 m (outs m) c b = VE0 m c b :=
  fun b hb => Gen.V1_of m (outs m) c b (by
    intro h; rw [List.mem_singleton] at h; subst h
    exact hb (Finset.mem_image.mpr ⟨1, Finset.mem_univ _, rfl⟩))

set_option backward.isDefEq.respectTransparency.types false in
/-- THE FIRST REGION over the thread state: entered from every unscoped buffer at the launch contents, left with the
    distance matrix at what the write-back leaves. Its arrays are split out of the unscoped buffers and put back at the
    exit contents; the generator register goes into the invariant and comes out; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [show (unscopedBufs c (VE0 m c) : sProp 𝕄) = StableHlo.held (c : Thread nD τ) (Pipeline.ucRefs τ sig) (Gen.V0 m c)
      from Pipeline.unscopedBufs_held c (Gen.V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (fun b => Gen.V1 m (outs m) c b) ((pdats m 0 c).arrAt · cfg0.N) (hF0 m c) (hrest0 m c)
    rw [show (unscopedBufs c (fun b => Gen.V1 m (outs m) c b) : sProp 𝕄) = StableHlo.held (c : Thread nD τ) (Pipeline.ucRefs τ sig) (Gen.V1 m (outs m) c)
      from Pipeline.unscopedBufs_held c (Gen.V1 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: two windows on one array -/

/-- The two buffers the second region's windows stand on: the distance matrix (read through two windows) and the rank
    matrix (written). -/
def T1 : Finset (DevRef τ sig) := {Proc.devRef .tc main_v0, Proc.devRef .tc main_v1}

theorem T1_sub : (T1 : Finset (DevRef τ sig)) ⊆ Pipeline.ucRefs τ sig := by
  intro b hb
  unfold T1 at hb
  rw [Finset.mem_insert, Finset.mem_singleton] at hb
  rcases hb with rfl | rfl
  · exact mem_uc main_v0 (by decide)
  · exact mem_uc main_v1 (by decide)

/-- Those two buffers held whole at a valuation, one by one. -/
theorem held_T1 (c : Dev nD) (W : Valuation τ sig (Elt F)) :
    (StableHlo.held (c : Thread nD τ) T1 W : sProp 𝕄)
      = iprop((((c : Thread nD τ).loc main_v0) ↦{fullShare} W main_v0) ∗ (((c : Thread nD τ).loc main_v1) ↦{fullShare} W main_v1)) := by
  unfold StableHlo.held T1
  rw [bigSep_eq_bigSepL_of_eq [Proc.devRef .tc main_v0, Proc.devRef .tc main_v1] (by decide) (by decide)]
  rfl

/-- The second region's arrays at contents `Fv`: the distance matrix at the left half of its share (the first reading
    window's) and at the right half (the second's), the rank matrix at the full share. -/
theorem arrays1_eq (c : Dev nD) (Fv : (w : Fin cfg1.W) → Buf (Elt F) ((cfg1.win w).arr.view.loc (c : Thread nD τ))) :
    ((pdats m 1 c).arrays Fv : sProp 𝕄)
      = iprop((((c : Thread nD τ).loc main_v0) ↦{fullShare.left} Fv 0) ∗ (((c : Thread nD τ).loc main_v0) ↦{fullShare.right} Fv 1)
          ∗ (((c : Thread nD τ).loc main_v1) ↦{fullShare} Fv 2)) := by
  unfold Dat.arrays
  rw [bigSep_W1]
  have e0 : ((cfgs 1).win 0).arr.view.set = Finset.univ := (arr_whole1 0).set_eq_univ
  have e1 : ((cfgs 1).win 1).arr.view.set = Finset.univ := (arr_whole1 1).set_eq_univ
  have e2 : ((cfgs 1).win 2).arr.view.set = Finset.univ := (arr_whole1 2).set_eq_univ
  rw [e0, e1, e2]
  rfl

/-- The distance matrix's full share is its two halves; beside the rank matrix, at entry and at exit. -/
theorem split3 (c : Dev nD) (f : Buf (Elt F) ((c : Thread nD τ).loc main_v0)) (g : Buf (Elt F) ((c : Thread nD τ).loc main_v1)) :
    iprop((((c : Thread nD τ).loc main_v0) ↦{fullShare} f) ∗ (((c : Thread nD τ).loc main_v1) ↦{fullShare} g))
      ⊢ (iprop((((c : Thread nD τ).loc main_v0) ↦{fullShare.left} f) ∗ (((c : Thread nD τ).loc main_v0) ↦{fullShare.right} f)
          ∗ (((c : Thread nD τ).loc main_v1) ↦{fullShare} g)) : sProp 𝕄) := by
  refine (sep_mono (pointsTo_share (PosShare.mem_left_op_right fullShare)).1 .rfl).trans ?_
  iintro ⟨⟨Hl, Hr⟩, Hg⟩
  isplitl [Hl]; · iexact Hl
  isplitl [Hr]; · iexact Hr
  iexact Hg
theorem join3 (c : Dev nD) (f : Buf (Elt F) ((c : Thread nD τ).loc main_v0)) (g : Buf (Elt F) ((c : Thread nD τ).loc main_v1)) :
    iprop((((c : Thread nD τ).loc main_v0) ↦{fullShare.left} f) ∗ (((c : Thread nD τ).loc main_v0) ↦{fullShare.right} f)
          ∗ (((c : Thread nD τ).loc main_v1) ↦{fullShare} g))
      ⊢ (iprop((((c : Thread nD τ).loc main_v0) ↦{fullShare} f) ∗ (((c : Thread nD τ).loc main_v1) ↦{fullShare} g)) : sProp 𝕄) := by
  iintro ⟨Hl, Hr, Hg⟩
  isplitl [Hl Hr]
  · iapply (pointsTo_share (PosShare.mem_left_op_right fullShare)).2
    isplitl [Hl] <;> iassumption
  iexact Hg

/-- After the second region every buffer but the rank matrix is as the region found it. -/
theorem V2_off (c : Dev nD) (b : DevRef τ sig) (hb : b ≠ Proc.devRef .tc main_v1) : Gen.V2 m (outs m) c b = Gen.V1 m (outs m) c b := by
  unfold Gen.V2; exact Function.update_of_ne hb _ _
theorem V2_v1 (c : Dev nD) : Gen.V2 m (outs m) c main_v1 = X1 m c := by
  unfold Gen.V2; rw [Function.update_self, outs_v1]

set_option backward.isDefEq.respectTransparency.types false in
/-- THE SECOND REGION over the thread state: entered from every unscoped buffer as the first region left them, left with
    the rank matrix at what the write-backs leave. At entry the distance matrix's full share is split into the two
    halves its two reading windows hold; at exit the halves (both still at the entry contents: a reading window's array is
    never written) are joined again. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V1 m (outs m) c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := StableHlo.held (c : Thread nD τ) (Pipeline.ucRefs τ sig \ T1) (Gen.V1 m (outs m) c)
  hentry c := by
    rw [Pipeline.ownSems0_none, StableHlo.held_sub_split (c : Thread nD τ) T1_sub, held_T1, arrays1_eq]
    refine (sep_mono (sep_mono (sep_mono (split3 c _ _) .rfl) .rfl) .rfl).trans ?_
    iintro ⟨⟨⟨⟨Hdl, Hdr, Hr⟩, Hrest⟩, Hp, HO⟩, -, -⟩
    imodintro
    isplitl [Hdl Hdr Hr]
    · isplitl [Hdl]; · rw [V1_eq]; iexact Hdl
      isplitl [Hdr]; · rw [V1_eq]; iexact Hdr
      rw [V1_eq]; iexact Hr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [StableHlo.held_sub_split (c : Thread nD τ) T1_sub (Gen.V2 m (outs m) c), held_T1, arrays1_eq,
      (pdats m 1 c).arrAt_in 0 rfl, (pdats m 1 c).arrAt_in 1 rfl,
      StableHlo.held_congr (c : Thread nD τ) (V := Gen.V2 m (outs m) c) (V' := Gen.V1 m (outs m) c) (S := Pipeline.ucRefs τ sig \ T1)
        (fun b hb => V2_off m c b (fun h => (Finset.mem_sdiff.mp hb).2 (by unfold T1; rw [h]; exact Finset.mem_insert_of_mem (Finset.mem_singleton_self _)))),
      V2_off m c main_v0 (by decide), V2_v1]
    refine (sep_mono (join3 c _ _) .rfl).trans ?_
    iintro ⟨⟨Hd, Hr⟩, HO, HY, Hrest⟩
    imodintro
    isplitl [Hd Hr Hrest]
    · isplitl [Hd Hr]
      · isplitl [Hd]; · rw [V1_eq]; iexact Hd
        iexact Hr
      iexact Hrest
    isplitl [HY]; · iexact HY
    unfold Pipeline.Dat.owesAt Pipeline.owesWithin
    icases HO with ⟨%W, -, HO⟩; iexists W; iexact HO

/-! ## The launch -/

/-- The last thread state regrouped: the buffers and the generator register on one side, the dues on the other. -/
theorem chain_end (A B C : sProp 𝕄) : iprop(A ∗ (B ∗ C)) ⊢ iprop((A ∗ B) ∗ C) := by
  iintro ⟨HA, HB, HC⟩
  isplitl [HA HB]
  · isplitl [HA] <;> iassumption
  iexact HC

set_option backward.isDefEq.respectTransparency.types false in
/-- THE RUN. From any memory with zero counters every weakly fair execution of the program terminates, nothing faulting,
    and every final memory holds every unscoped buffer at the last valuation: the launch memory with the distance matrix,
    the rank matrix and the host lines' results written over it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V3 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V3 m (outs m) c) ∗ ∃ r, prngReg c r))
    (hch := fun c => ⟨.rfl, .rfl, .rfl, chain_end _ _ _⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V3_main_arg0 m (outs m) c),
     (h c _ (mem_uc main_arg1 (by decide))).trans (Gen.V3_main_arg1 m (outs m) c)⟩) (run_all m ρ)

end Cert.Kernel.Launch

end
-- ==== Proof.IdealBody0.lean ====
/-
  The first kernel region, the distance kernel, on a grid of one point: the whole feature matrix is staged, the body
  loads it, computes every pairwise distance and stores the whole distance matrix, which is written back.
  Here: what the body leaves in the output's staging buffer as a function of the staged features, the body's triple,
  and the region's proof data over the contents `V` the region is entered with.
-/
import proofs.«138343_j79577154060375_1_alg».proof.Proof.Gen.KernelIdeal.Launch
import proofs.«138343_j79577154060375_1_alg».proof.Proof.Gen.KernelIdeal.Skeleton
import proofs.«138343_j79577154060375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at the point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole feature block and the whole distance block, as the body's load and store name them. -/
abbrev rX : Rect S512x384 := Rect.unit (s := S512x384) ![0, 0] S512x384.size inb_S512x384_S512x384_0_0
abbrev rD : Rect S512x512 := Rect.unit (s := S512x512) ![0, 0] S512x512.size inb_S512x512_S512x512_0_0

/-- What the body leaves in the distance window's staging buffer: its one store, of the distances of the loaded features. -/
def out0_1 (x0 : Vec F S512x384 .f32) : Vec F S512x512 .f32 :=
  View.canon [⟨rD, k0_pay1 (View.ld x0 rX)⟩]

/-- The one store covers the buffer. -/
theorem cover0_1 (p0 : Vec F S512x512 .f32) (y : S512x512.Idx) :
    ∃ pc ∈ ([⟨rD, p0⟩] : List (View.Piece (Elt F) S512x512 .f32)), y ∈ pc.1.set :=
  View.cover_of_tiled [⟨rD, p0⟩] S512x512.size (by rfl) y

set_option maxHeartbeats 1000000 in
/-- The distance kernel's body on whole staging memrefs, the features' at contents `x0` and the distances' at anything,
    runs to the continuation holding the features as they were and the distances' buffer at `out0_1 x0`. -/
theorem sound_kernel0 (c : Dev nD) (E : Set ℕ) (i : grid0.Coords) (arg1 : Memref sig .tc .vmem S512x384 .f32) (harg1 : arg1.IsWhole)
    (arg2 : Memref sig .tc .vmem S512x512 .f32) (harg2 : arg2.IsWhole)
    (x0 : Vec F S512x384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- Region 0's proof data on core `c`: the arrays as the region finds them; after the body the features' buffer at
    its block and the distances' at `out0_1` of it; the invariant is the scoped rest and the generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at the point, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at the point: the features' memref holds its block, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at the point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Launch

end
-- ==== Proof.IdealBody1.lean ====
/-
  The second kernel region, the rank kernel, on a grid of 4 × 4 × 4 points (q-block, g-block, g'-block; the last
  axis fastest). Two windows read 128 × 128 blocks of the ONE distance matrix — block (q, g) and block (q, g') —
  and the output window accumulates block (q, g) of the ranks over the four g'-blocks: at g' = 0 the body zeroes
  the output's buffer and adds that block's sums; at g' > 0 it adds to what the point before left; the block is
  written back after g' = 3.
  Here: the body's triple in its two cases, what the output's buffer holds point by point, the proof data (the two
  reading windows holding half a share of the distance matrix each) and the body obligation.
-/
import proofs.«138343_j79577154060375_1_alg».proof.Proof.Gen.KernelIdeal.Launch
import proofs.«138343_j79577154060375_1_alg».proof.Proof.Gen.KernelIdeal.Skeleton
import proofs.«138343_j79577154060375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A reading window's staging buffer holds its block at every point, fetched there or not (unfetched, its block index has
    not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's branch: it zeroes the accumulator exactly when the g'-coordinate is 0. -/
abbrev cond1_0 (i : grid1.Coords) : Prop := (Scalar.cmpi .ne (Scalar.extui (Scalar.cmpi .eq (BitVec.ofNat 32 (i 2).val) 0#32)) 0#32) = 1#1
/-- That is at the points ≡ 0 (mod 4), checked at each of the 64 grid points. -/
theorem hcond1_0 : ∀ t : Fin cfg1.N, cond1_0 (grid1.coords t) ↔ t.val % 4 = 0 :=
  (by decide +kernel : ∀ t : Fin grid1.N, cond1_0 (grid1.coords t) ↔ t.val % 4 = 0)

/-- One staging buffer of the output window, through which its contents are stated. -/
abbrev VO1_2 : View sig .tc .vmem S128x128 .f32 := (Memref.whole cc1_stg2_0 : Memref sig .tc .vmem S128x128 .f32).view
/-- Each window's current staging memref at point `t`, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)

set_option maxHeartbeats 1000000 in
/-- What the body's stores leave in the output's staging memref, as pieces (last first), when the accumulator is ZEROED
    first (g' = 0), with the proof that on whole staging memrefs — the two distance blocks at their contents, the output's
    at anything — the body runs to the continuation holding the inputs as they were and the output's buffer with the
    pieces written. -/
noncomputable def kernelRun1_A (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : cond1_0 i) (x0 x1 : Vec F S128x128 .f32) :
    { L2 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1__rank_kernel i arg3 harg3 arg4 harg4 arg5 harg5) K } := by
  refine ⟨?_, fun E K => ?run⟩
  case run =>
    simp only [cc1__rank_kernel_eq_skeleton]; unfold cc1__rank_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- The same when the accumulator is KEPT (g' > 0): the output's buffer enters at its running contents `xo`. -/
noncomputable def kernelRun1_B (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : ¬cond1_0 i) (x0 x1 : Vec F S128x128 .f32) (xo : Vec F S128x128 .f32) :
    { L2 : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1__rank_kernel i arg3 harg3 arg4 harg4 arg5 harg5) K } := by
  refine ⟨?_, fun E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- In either case the stores cover the output's block. -/
theorem cover1_A (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : cond1_0 i) (x0 x1 : Vec F S128x128 .f32) (y : S128x128.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S128x128.size (by sl_kernel_rfl) y
theorem cover1_B (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : ¬cond1_0 i) (x0 x1 xo : Vec F S128x128 .f32) (y : S128x128.Idx) :
    ∃ pc ∈ (kernelRun1_B c i arg3 harg3 arg4 harg4 arg5 harg5 hc0 x0 x1 xo).1, y ∈ pc.1.set :=
  View.cover_of_tiledL (kernelRun1_B c i arg3 harg3 arg4 harg4 arg5 harg5 hc0 x0 x1 xo).1 S128x128.size (by sl_kernel_rfl) y

/-- What each case leaves in the output's staging buffer: its pieces read back. -/
def out1_A (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : cond1_0 i) (x0 x1 : Vec F S128x128 .f32) : Vec F S128x128 .f32 :=
  VO1_2.read (Elt F) (VO1_2.writes (Elt F) VO1_2.junk (kernelRun1_A c i arg3 harg3 arg4 harg4 arg5 harg5 hc0 x0 x1).1)
def out1_B (c : Dev nD) (i : grid1.Coords) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (hc0 : ¬cond1_0 i) (x0 x1 xo : Vec F S128x128 .f32) : Vec F S128x128 .f32 :=
  VO1_2.read (Elt F) (VO1_2.writes (Elt F) VO1_2.junk (kernelRun1_B c i arg3 harg3 arg4 harg4 arg5 harg5 hc0 x0 x1 xo).1)

/-- THE ACCUMULATION: what the output's staging buffer holds after the body at position `n` — at g' = 0 the zeroing
    case over the point's two blocks, later the keeping case over what position `n − 1` left. -/
def outsAt1 (c : Dev nD) : (n : ℕ) → n < cfg1.N → Vec F S128x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 4 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 4 = 0) :
    outsAt1 V c t.val t.isLt = out1_A c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt = out1_B c (grid1.coords t) (ms1_0 t) (hs1_0 t) (ms1_1 t) (hs1_1 t) (ms1_2 t) (hs1_2 t) (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- Region 1's proof data on core `c`: the arrays as the region finds them; after the body each reading window's buffer
    at its block and the output's at the accumulation; the invariant is the scoped rest and the generator register; nothing
    owed; the two reading windows hold the left and the right half of the distance matrix's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At g' > 0 the output's staging buffer holds what the body left at the point before: the point is not the first and
    the buffer was not written back between. -/
theorem before1_2_B (c : Dev nD) (t : Fin cfg1.N) (h0 : ¬t.val % 4 = 0) (d) :
    (dat1 V c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the reading windows' memrefs hold their blocks; the point's g'-coordinate says which case it is
    in, and at g' > 0 the output's memref holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Launch

end
-- ==== Proof.IdealRun.lean ====
/-
  The run of the whole program: the two kernel regions and the host lines after them, as the segments of the
  several-regions launch. Between two items the core holds every unscoped buffer whole at a named valuation: the
  launch memory; then the distance matrix at what the first region's write-back leaves; then the rank matrix at
  what the second region's write-backs leave; then the host lines applied. The second region reads the ONE distance
  matrix through two windows, each holding half of its share, split at the region's entry and joined at its exit.
-/
import proofs.«138343_j79577154060375_1_alg».proof.Proof.Gen.KernelIdeal.Launch
import proofs.«138343_j79577154060375_1_alg».proof.Proof.Gen.KernelIdeal.Skeleton
import proofs.«138343_j79577154060375_1_alg».proof.Proof.Gen.KernelIdeal.Points
import proofs.«138343_j79577154060375_1_alg».proof.Proof.Gen.KernelIdeal.Regions
import proofs.«138343_j79577154060375_1_alg».proof.Proof.IdealBody0
import proofs.«138343_j79577154060375_1_alg».proof.Proof.IdealBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- What the first region is entered with: the launch memory. -/
abbrev VE0 (c : Dev nD) (b : Ref sig .tc) : Buf (Elt F) ((c : Thread nD τ).loc b) := Gen.V0 m c b

/-- What the first region leaves in the distance matrix's buffer. -/
def X0 (c : Dev nD) : Buf (Elt F) ((c : Thread nD τ).loc main_v0) := (dat0 (VE0 m) c).arrAt 1 cfg0.N

/-- The unscoped buffers after the first region, and the same read at the TensorCore's references: what the second region
    is entered with. -/
abbrev W1 (c : Dev nD) : Valuation τ sig (Elt F) := Function.update (Gen.V0 m c) main_v0 (X0 m c)
abbrev VE1 (c : Dev nD) (b : Ref sig .tc) : Buf (Elt F) ((c : Thread nD τ).loc b) := W1 m c b

/-- What the second region leaves in the rank matrix's buffer. -/
def X1 (c : Dev nD) : Buf (Elt F) ((c : Thread nD τ).loc main_v1) := (dat1 (VE1 m) c).arrAt 2 cfg1.N

/-- The regions' results by item: the distance matrix after the first region, the rank matrix after the second. -/
def outs : Gen.Outs (F := F) := fun J r c =>
  if h0 : r = main_v0 then h0 ▸ X0 m c
  else if h1 : r = main_v1 then h1 ▸ X1 m c
  else m ((c : Thread nD τ).loc r)

theorem outs_v0 (J : ℕ) (c : Dev nD) : outs m J main_v0 c = X0 m c := by
  unfold outs; rw [dif_pos rfl]
theorem outs_v1 (J : ℕ) (c : Dev nD) : outs m J main_v1 c = X1 m c := by
  unfold outs; rw [dif_neg (by decide), dif_pos rfl]

theorem V1_eq (c : Dev nD) : Gen.V1 m (outs m) c = W1 m c := by
  unfold Gen.V1 W1; rw [outs_v0]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

/-- At the first region's exit each of its arrays holds what the pipeline leaves, -/
theorem hF0 (c : Dev nD) (w : Fin cfg0.W) : (pdats m 0 c).arrAt w cfg0.N = Gen.V1 m (outs m) c (Pipeline.arrRef spec0 w) := by
  match w with
  | ⟨0, _⟩ =>
    refine ((pdats m 0 c).arrAt_in 0 rfl _).trans ?_
    exact (Gen.V1_of m (outs m) c main_arg0 (by decide)).symm
  | ⟨1, _⟩ =>
    show X0 m c = Function.update (Gen.V0 m c) main_v0 (outs m 1 main_v0 c) main_v0
    rw [Function.update_self, outs_v0]
/-- and every other buffer what it held at entry. -/
theorem hrest0 (c : Dev nD) : ∀ b, b ∉ Finset.univ.image (Pipeline.arrRef spec0) → Gen.V1 m (outs m) c b = VE0 m c b :=
  fun b hb => Gen.V1_of m (outs m) c b (by
    intro h; rw [List.mem_singleton] at h; subst h
    exact hb (Finset.mem_image.mpr ⟨1, Finset.mem_univ _, rfl⟩))

set_option backward.isDefEq.respectTransparency.types false in
/-- THE FIRST REGION over the thread state: entered from every unscoped buffer at the launch contents, left with the
    distance matrix at what the write-back leaves. Its arrays are split out of the unscoped buffers and put back at the
    exit contents; the generator register goes into the invariant and comes out; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [show (unscopedBufs c (VE0 m c) : sProp 𝕄) = StableHlo.held (c : Thread nD τ) (Pipeline.ucRefs τ sig) (Gen.V0 m c)
      from Pipeline.unscopedBufs_held c (Gen.V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (fun b => Gen.V1 m (outs m) c b) ((pdats m 0 c).arrAt · cfg0.N) (hF0 m c) (hrest0 m c)
    rw [show (unscopedBufs c (fun b => Gen.V1 m (outs m) c b) : sProp 𝕄) = StableHlo.held (c : Thread nD τ) (Pipeline.ucRefs τ sig) (Gen.V1 m (outs m) c)
      from Pipeline.unscopedBufs_held c (Gen.V1 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: two windows on one array -/

/-- The two buffers the second region's windows stand on: the distance matrix (read through two windows) and the rank
    matrix (written). -/
def T1 : Finset (DevRef τ sig) := {Proc.devRef .tc main_v0, Proc.devRef .tc main_v1}

theorem T1_sub : (T1 : Finset (DevRef τ sig)) ⊆ Pipeline.ucRefs τ sig := by
  intro b hb
  unfold T1 at hb
  rw [Finset.mem_insert, Finset.mem_singleton] at hb
  rcases hb with rfl | rfl
  · exact mem_uc main_v0 (by decide)
  · exact mem_uc main_v1 (by decide)

/-- Those two buffers held whole at a valuation, one by one. -/
theorem held_T1 (c : Dev nD) (W : Valuation τ sig (Elt F)) :
    (StableHlo.held (c : Thread nD τ) T1 W : sProp 𝕄)
      = iprop((((c : Thread nD τ).loc main_v0) ↦{fullShare} W main_v0) ∗ (((c : Thread nD τ).loc main_v1) ↦{fullShare} W main_v1)) := by
  unfold StableHlo.held T1
  rw [bigSep_eq_bigSepL_of_eq [Proc.devRef .tc main_v0, Proc.devRef .tc main_v1] (by decide) (by decide)]
  rfl

/-- The second region's arrays at contents `Fv`: the distance matrix at the left half of its share (the first reading
    window's) and at the right half (the second's), the rank matrix at the full share. -/
theorem arrays1_eq (c : Dev nD) (Fv : (w : Fin cfg1.W) → Buf (Elt F) ((cfg1.win w).arr.view.loc (c : Thread nD τ))) :
    ((pdats m 1 c).arrays Fv : sProp 𝕄)
      = iprop((((c : Thread nD τ).loc main_v0) ↦{fullShare.left} Fv 0) ∗ (((c : Thread nD τ).loc main_v0) ↦{fullShare.right} Fv 1)
          ∗ (((c : Thread nD τ).loc main_v1) ↦{fullShare} Fv 2)) := by
  unfold Dat.arrays
  rw [bigSep_W1]
  have e0 : ((cfgs 1).win 0).arr.view.set = Finset.univ := (arr_whole1 0).set_eq_univ
  have e1 : ((cfgs 1).win 1).arr.view.set = Finset.univ := (arr_whole1 1).set_eq_univ
  have e2 : ((cfgs 1).win 2).arr.view.set = Finset.univ := (arr_whole1 2).set_eq_univ
  rw [e0, e1, e2]
  rfl

/-- The distance matrix's full share is its two halves; beside the rank matrix, at entry and at exit. -/
theorem split3 (c : Dev nD) (f : Buf (Elt F) ((c : Thread nD τ).loc main_v0)) (g : Buf (Elt F) ((c : Thread nD τ).loc main_v1)) :
    iprop((((c : Thread nD τ).loc main_v0) ↦{fullShare} f) ∗ (((c : Thread nD τ).loc main_v1) ↦{fullShare} g))
      ⊢ (iprop((((c : Thread nD τ).loc main_v0) ↦{fullShare.left} f) ∗ (((c : Thread nD τ).loc main_v0) ↦{fullShare.right} f)
          ∗ (((c : Thread nD τ).loc main_v1) ↦{fullShare} g)) : sProp 𝕄) := by
  refine (sep_mono (pointsTo_share (PosShare.mem_left_op_right fullShare)).1 .rfl).trans ?_
  iintro ⟨⟨Hl, Hr⟩, Hg⟩
  isplitl [Hl]; · iexact Hl
  isplitl [Hr]; · iexact Hr
  iexact Hg
theorem join3 (c : Dev nD) (f : Buf (Elt F) ((c : Thread nD τ).loc main_v0)) (g : Buf (Elt F) ((c : Thread nD τ).loc main_v1)) :
    iprop((((c : Thread nD τ).loc main_v0) ↦{fullShare.left} f) ∗ (((c : Thread nD τ).loc main_v0) ↦{fullShare.right} f)
          ∗ (((c : Thread nD τ).loc main_v1) ↦{fullShare} g))
      ⊢ (iprop((((c : Thread nD τ).loc main_v0) ↦{fullShare} f) ∗ (((c : Thread nD τ).loc main_v1) ↦{fullShare} g)) : sProp 𝕄) := by
  iintro ⟨Hl, Hr, Hg⟩
  isplitl [Hl Hr]
  · iapply (pointsTo_share (PosShare.mem_left_op_right fullShare)).2
    isplitl [Hl] <;> iassumption
  iexact Hg

/-- After the second region every buffer but the rank matrix is as the region found it. -/
theorem V2_off (c : Dev nD) (b : DevRef τ sig) (hb : b ≠ Proc.devRef .tc main_v1) : Gen.V2 m (outs m) c b = Gen.V1 m (outs m) c b := by
  unfold Gen.V2; exact Function.update_of_ne hb _ _
theorem V2_v1 (c : Dev nD) : Gen.V2 m (outs m) c main_v1 = X1 m c := by
  unfold Gen.V2; rw [Function.update_self, outs_v1]

set_option backward.isDefEq.respectTransparency.types false in
/-- THE SECOND REGION over the thread state: entered from every unscoped buffer as the first region left them, left with
    the rank matrix at what the write-backs leave. At entry the distance matrix's full share is split into the two
    halves its two reading windows hold; at exit the halves (both still at the entry contents: a reading window's array is
    never written) are joined again. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V1 m (outs m) c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := StableHlo.held (c : Thread nD τ) (Pipeline.ucRefs τ sig \ T1) (Gen.V1 m (outs m) c)
  hentry c := by
    rw [Pipeline.ownSems0_none, StableHlo.held_sub_split (c : Thread nD τ) T1_sub, held_T1, arrays1_eq]
    refine (sep_mono (sep_mono (sep_mono (split3 c _ _) .rfl) .rfl) .rfl).trans ?_
    iintro ⟨⟨⟨⟨Hdl, Hdr, Hr⟩, Hrest⟩, Hp, HO⟩, -, -⟩
    imodintro
    isplitl [Hdl Hdr Hr]
    · isplitl [Hdl]; · rw [V1_eq]; iexact Hdl
      isplitl [Hdr]; · rw [V1_eq]; iexact Hdr
      rw [V1_eq]; iexact Hr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [StableHlo.held_sub_split (c : Thread nD τ) T1_sub (Gen.V2 m (outs m) c), held_T1, arrays1_eq,
      (pdats m 1 c).arrAt_in 0 rfl, (pdats m 1 c).arrAt_in 1 rfl,
      StableHlo.held_congr (c : Thread nD τ) (V := Gen.V2 m (outs m) c) (V' := Gen.V1 m (outs m) c) (S := Pipeline.ucRefs τ sig \ T1)
        (fun b hb => V2_off m c b (fun h => (Finset.mem_sdiff.mp hb).2 (by unfold T1; rw [h]; exact Finset.mem_insert_of_mem (Finset.mem_singleton_self _)))),
      V2_off m c main_v0 (by decide), V2_v1]
    refine (sep_mono (join3 c _ _) .rfl).trans ?_
    iintro ⟨⟨Hd, Hr⟩, HO, HY, Hrest⟩
    imodintro
    isplitl [Hd Hr Hrest]
    · isplitl [Hd Hr]
      · isplitl [Hd]; · rw [V1_eq]; iexact Hd
        iexact Hr
      iexact Hrest
    isplitl [HY]; · iexact HY
    unfold Pipeline.Dat.owesAt Pipeline.owesWithin
    icases HO with ⟨%W, -, HO⟩; iexists W; iexact HO

/-! ## The launch -/

/-- The last thread state regrouped: the buffers and the generator register on one side, the dues on the other. -/
theorem chain_end (A B C : sProp 𝕄) : iprop(A ∗ (B ∗ C)) ⊢ iprop((A ∗ B) ∗ C) := by
  iintro ⟨HA, HB, HC⟩
  isplitl [HA HB]
  · isplitl [HA] <;> iassumption
  iexact HC

set_option backward.isDefEq.respectTransparency.types false in
/-- THE RUN. From any memory with zero counters every weakly fair execution of the program terminates, nothing faulting,
    and every final memory holds every unscoped buffer at the last valuation: the launch memory with the distance matrix,
    the rank matrix and the host lines' results written over it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V3 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V3 m (outs m) c) ∗ ∃ r, prngReg c r))
    (hch := fun c => ⟨.rfl, .rfl, .rfl, chain_end _ _ _⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V3_main_arg0 m (outs m) c),
     (h c _ (mem_uc main_arg1 (by decide))).trans (Gen.V3_main_arg1 m (outs m) c)⟩) (run_all m ρ)

end Cert.KernelIdeal.Launch

end
-- ==== Proof.RankSpec.lean ====
/-
  The mathematics both programs compute, index by index over the extended reals.

  For a feature matrix x of 512 rows and 384 columns:
    sq q        = Σ_k x[q,k]²                         the squared length of row q
    gram q g    = Σ_k x[q,k]·x[g,k]                   the inner product of rows q and g
    dist q g    = √ max (sq q + sq g − 2·gram q g, 0)  their Euclidean distance
  and for a matrix d of distances:
    soft a b    = 1 / (1 + exp (−(a − b)/c))          a smooth step, c the float nearest 1/100
    rank q g    = Σ_g' soft (d[q,g]) (d[q,g'])        the soft rank of g among the gallery of q.
  Float literals stay as their binary words: both programs spell the same words, so none is evaluated.
-/
import Idealize.ShloMosaic.PureOps.Ideal
import Idealize.ShloMosaic.PureOps.Ideal.Laws
import Idealize.ShloMosaic.Lib.ValueIdx

noncomputable section

namespace Cert.RankSpec

open Idealize.ShloMosaic Idealize.ShloMosaic.ValueIdx

/-- The feature matrix's shape and the distance matrix's. -/
abbrev SX : Shape := ⟨2, ![512, 384]⟩
abbrev SD : Shape := ⟨2, ![512, 512]⟩

/-- The squared length of row `q`. -/
def sq (x : SX.Idx → EReal) (q : Fin 512) : EReal := ∑ k : Fin 384, x (ix2 q k) * x (ix2 q k)

/-- The inner product of rows `q` and `g`. -/
def gram (x : SX.Idx → EReal) (q g : Fin 512) : EReal := ∑ k : Fin 384, x (ix2 q k) * x (ix2 g k)

/-- The distance of rows `q` and `g` by the Gram identity, clamped at zero before the root. -/
def dist (x : SX.Idx → EReal) (q g : Fin 512) : EReal :=
  Ideal.sqrt (max (sq x q + sq x g - Ideal.ofBits .f32 0x40000000#32 * gram x q g) (Ideal.ofBits .f32 0x00000000#32))

/-- All the distances, as one array. -/
def distArr (x : SX.Idx → EReal) : SD.Idx → EReal := fun i => dist x (i 0) (i 1)

/-- The smooth step of a difference of two distances. -/
def soft (a b : EReal) : EReal := Ideal.logistic (Ideal.div (a - b) (Ideal.ofBits .f32 0x3C23D70A#32))

/-- The soft rank of `g` among the gallery of `q`. -/
def rank (d : SD.Idx → EReal) (q g : Fin 512) : EReal := ∑ g' : Fin 512, soft (d (ix2 q g)) (d (ix2 q g'))

/-- All the soft ranks, as one array. -/
def rankArr (d : SD.Idx → EReal) : SD.Idx → EReal := fun i => rank d (i 0) (i 1)

/-- The part of a row's soft rank that one block of 128 gallery entries contributes. -/
def rankPart (d : SD.Idx → EReal) (q g : Fin 512) (b : Fin 4) : EReal :=
  ∑ j : Fin 128, soft (d (ix2 q g)) (d (ix2 q ⟨b.val * 128 + j.val, by have := b.isLt; have := j.isLt; omega⟩))

end Cert.RankSpec

end
-- ==== Proof.KerPay.lean ====
/-
  The two kernels' arithmetic, read one element at a time over the extended reals.

  The distance kernel computes, at (q, g), the root of the clamped Gram expression
  sq q + sq g − 2·gram q g; the rank kernel's step adds to its accumulator, at (p, r), the sum
  over the 128 gallery entries j of its block of the smooth step of a[p,r] − b[p,j]; and a
  sum over 512 gallery entries is the sum of its four consecutive blocks of 128.
-/
import proofs.«138343_j79577154060375_1_alg».proof.Proof.Gen.KernelIdeal.Skeleton
import proofs.«138343_j79577154060375_1_alg».proof.Proof.RankSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KerPay

open Cert.KernelIdeal Cert.KernelIdeal.Gen Idealize.ShloMosaic Idealize.ShloMosaic.ValueIdx

/-! ## A sum over 512 entries is the sum of its four blocks of 128 -/

/-- Re-indexing `Fin 512` by (block, offset): entry `128·b + j`. -/
theorem sum_blocks {M : Type*} [AddCommMonoid M] (f : Fin 512 → M) :
    ∑ i : Fin 512, f i
      = ∑ b : Fin 4, ∑ j : Fin 128, f ⟨b.val * 128 + j.val, by have := b.isLt; have := j.isLt; omega⟩ := by
  rw [← Equiv.sum_comp (finProdFinEquiv : Fin 4 × Fin 128 ≃ Fin (4 * 128)) f, Fintype.sum_prod_type]
  refine Finset.sum_congr rfl fun b _ => Finset.sum_congr rfl fun j _ => congrArg f (Fin.ext ?_)
  show j.val + 128 * b.val = b.val * 128 + j.val
  omega

/-- The four blocks' parts, added from zero in order, make up the whole soft rank. -/
theorem rank_blocks (d : Cert.RankSpec.SD.Idx → EReal) (q g : Fin 512) :
    ((((0 : EReal) + Cert.RankSpec.rankPart d q g 0) + Cert.RankSpec.rankPart d q g 1)
        + Cert.RankSpec.rankPart d q g 2) + Cert.RankSpec.rankPart d q g 3 = Cert.RankSpec.rank d q g := by
  unfold Cert.RankSpec.rank
  rw [sum_blocks, Fin.sum_univ_four, zero_add]
  rfl

/-! ## The rank kernel's first step stores a block of zeros -/

theorem pay_zero (i : S128x128.Idx) : k1_pay1 (F := Ideal) i = 0 := by
  unfold k1_pay1
  show Ideal.ofBits .f32 0x00000000#32 = 0
  exact Ideal.ofBits_zero_f32

/-! ## The rank kernel's step at an element -/

/-- The 128 x 128 x 128 array's index that a reduced index (p, r) and a middle coordinate j name. -/
theorem lift_mid (p r j : Fin 128) :
    reduces_S128x128x128_S128x128.lift (ix2 p r) j = ix3 p j r := by
  funext a
  match a with
  | ⟨0, _⟩ => exact Fin.ext rfl
  | ⟨1, _⟩ => exact Fin.ext rfl
  | ⟨2, _⟩ => exact Fin.ext rfl

/-- The block a, laid out as [128, 1, 128] and repeated along the middle axis, reads a[p, r] at (p, j, r). -/
theorem bcast_a (a : FVec Ideal S128x128 .f32) (p j r : Fin 128) :
    broadcastTo S128x128x128 (shapeCast S128x1x128 a shapeCasts_S128x128_S128x1x128)
        broadcasts_S128x1x128_S128x128x128 (ix3 p j r) = a (ix2 p r) := by
  refine (broadcastTo_apply _ broadcasts_S128x1x128_S128x128x128 (ix3 p j r) (ix3 p (0 : Fin 1) r) fun ax => ?_).trans ?_
  · match ax with
    | ⟨0, _⟩ => show p.val = if (128 : Nat) = 1 then 0 else p.val; rw [if_neg (by decide)]
    | ⟨1, _⟩ => show (0 : Nat) = if (1 : Nat) = 1 then 0 else j.val; rw [if_pos rfl]
    | ⟨2, _⟩ => show r.val = if (128 : Nat) = 1 then 0 else r.val; rw [if_neg (by decide)]
  · refine shapeCast_apply a shapeCasts_S128x128_S128x1x128 (ix3 p (0 : Fin 1) r) (ix2 p r) ?_
    rw [Shape.rowMajor_val_two, Shape.rowMajor_val_three]
    show p.val * 128 + r.val = (p.val * 1 + 0) * 128 + r.val
    omega

/-- The block b, laid out as [128, 128, 1] and repeated along the last axis, reads b[p, j] at (p, j, r). -/
theorem bcast_b (b : FVec Ideal S128x128 .f32) (p j r : Fin 128) :
    broadcastTo S128x128x128 (shapeCast S128x128x1 b shapeCasts_S128x128_S128x128x1)
        broadcasts_S128x128x1_S128x128x128 (ix3 p j r) = b (ix2 p j) := by
  refine (broadcastTo_apply _ broadcasts_S128x128x1_S128x128x128 (ix3 p j r) (ix3 p j (0 : Fin 1)) fun ax => ?_).trans ?_
  · match ax with
    | ⟨0, _⟩ => show p.val = if (128 : Nat) = 1 then 0 else p.val; rw [if_neg (by decide)]
    | ⟨1, _⟩ => show j.val = if (128 : Nat) = 1 then 0 else j.val; rw [if_neg (by decide)]
    | ⟨2, _⟩ => show (0 : Nat) = if (1 : Nat) = 1 then 0 else r.val; rw [if_pos rfl]
  · refine shapeCast_apply b shapeCasts_S128x128_S128x128x1 (ix3 p j (0 : Fin 1)) (ix2 p j) ?_
    rw [Shape.rowMajor_val_two, Shape.rowMajor_val_three]
    show p.val * 128 + j.val = (p.val * 128 + j.val) * 1 + 0
    omega

/-- One step of the rank kernel adds, at (p, r), the smooth steps of a[p, r] against the 128 entries b[p, ·]. -/
theorem pay_acc (a b acc : Vec Ideal S128x128 .f32) (p r : Fin 128) :
    k1_pay2 (F := Ideal) a b acc (ix2 p r)
      = acc (ix2 p r) + ∑ j : Fin 128, Cert.RankSpec.soft (a (ix2 p r)) (b (ix2 p j)) := by
  unfold k1_pay2
  simp only [shapeCast_self]
  refine (addf_apply _ _ _).trans (congrArg (acc (ix2 p r) + ·) ?_)
  refine (Ideal.multiReduction_add_single _ _ reduces_S128x128x128_S128x128 (.inl rfl) rfl (ix2 p r)).trans ?_
  refine Finset.sum_congr rfl fun (j : Fin 128) _ => ?_
  refine (congrArg _ (lift_mid p r j)).trans ?_
  exact congrArg₂ (fun u v => Ideal.logistic (Ideal.div (u - v) (Ideal.ofBits .f32 0x3C23D70A#32)))
    (bcast_a a p j r) (bcast_b b p j r)

/-! ## The distance kernel at an element -/

/-- The 512 x 384 array's index that a row q and a column k name. -/
theorem lift_row (q : Fin 512) (k : Fin 384) : reduces_S512x384_S512.lift (ix1 q) k = ix2 q k := by
  funext a
  match a with
  | ⟨0, _⟩ => exact Fin.ext rfl
  | ⟨1, _⟩ => exact Fin.ext rfl

/-- The rows' squared lengths, summed along each row and laid out as a column, read sq q at (q, 0). -/
theorem col_sq (x : FVec Ideal S512x384 .f32) (q : Fin 512) (z : Fin 1) :
    shapeCast S512x1
        (multiReduction (F := Ideal) .add [1] S512 (mulf x x) 0x00000000#32 reduces_S512x384_S512 (.inl rfl) rfl)
        shapeCasts_S512_S512x1 (ix2 q z) = Cert.RankSpec.sq x q := by
  refine (shapeCast_apply _ shapeCasts_S512_S512x1 (ix2 q z) (ix1 q) ?_).trans ?_
  · rw [Shape.rowMajor_val_one, Shape.rowMajor_val_two]
    show q.val = q.val * 1 + z.val
    have := z.isLt
    omega
  · refine (Ideal.multiReduction_add_single _ _ reduces_S512x384_S512 (.inl rfl) rfl (ix1 q)).trans ?_
    refine Finset.sum_congr rfl fun (k : Fin 384) _ => ?_
    exact congrArg (fun i => x i * x i) (lift_row q k)

/-- A column repeated along the rows reads its entry of the same row. -/
theorem bcast_col (c : FVec Ideal S512x1 .f32) (q g : Fin 512) :
    broadcastTo S512x512 c broadcasts_S512x1_S512x512 (ix2 q g) = c (ix2 q (0 : Fin 1)) :=
  broadcastTo_apply c broadcasts_S512x1_S512x512 (ix2 q g) (ix2 q (0 : Fin 1)) fun ax =>
    match ax with
    | ⟨0, _⟩ => by show q.val = if (512 : Nat) = 1 then 0 else q.val; rw [if_neg (by decide)]
    | ⟨1, _⟩ => by show (0 : Nat) = if (1 : Nat) = 1 then 0 else g.val; rw [if_pos rfl]

/-- The column transposed to a row and repeated along the columns reads its entry of the same column. -/
theorem bcast_row (c : FVec Ideal S512x1 .f32) (q g : Fin 512) :
    broadcastTo S512x512 (transpose S1x512 [1, 0] c transposes_S512x1_p1_0_S1x512) broadcasts_S1x512_S512x512 (ix2 q g)
      = c (ix2 g (0 : Fin 1)) :=
  (broadcastTo_1b_ab_apply _ broadcasts_S1x512_S512x512 q g).trans
    (transpose_ix2_apply c transposes_S512x1_p1_0_S1x512 (0 : Fin 1) g)

/-- The matrix product's left operand index keeps the output's row … -/
theorem lhs_row (i : S512x512.Idx) (c : dot_S512x384_S384x512_S512x512_1_0_0_1_n_n.contr.Idx) :
    (dot_S512x384_S384x512_S512x512_1_0_0_1_n_n.lhsIdx i c 0).val = (i 0).val := by
  unfold DotDims.lhsIdx
  rw [dif_neg (show ¬(0 : Fin S512x384.rank) ∈ dot_S512x384_S384x512_S512x512_1_0_0_1_n_n.lhsBatch by decide),
    dif_pos (show (0 : Fin S512x384.rank) ∈ dot_S512x384_S384x512_S512x512_1_0_0_1_n_n.lhsNonContracting by decide)]
  rfl
/-- … and runs along the contraction on its columns; -/
theorem lhs_col (i : S512x512.Idx) (c : dot_S512x384_S384x512_S512x512_1_0_0_1_n_n.contr.Idx) :
    (dot_S512x384_S384x512_S512x512_1_0_0_1_n_n.lhsIdx i c 1).val = (c ⟨0, by decide⟩).val :=
  dot_S512x384_S384x512_S512x512_1_0_0_1_n_n.lhsIdx_val_of_single rfl i c
/-- the right operand's runs along the contraction on its rows … -/
theorem rhs_row (i : S512x512.Idx) (c : dot_S512x384_S384x512_S512x512_1_0_0_1_n_n.contr.Idx) :
    (dot_S512x384_S384x512_S512x512_1_0_0_1_n_n.rhsIdx i c 0).val = (c ⟨0, by decide⟩).val :=
  dot_S512x384_S384x512_S512x512_1_0_0_1_n_n.rhsIdx_val_of_single rfl i c
/-- … and keeps the output's column. -/
theorem rhs_col (i : S512x512.Idx) (c : dot_S512x384_S384x512_S512x512_1_0_0_1_n_n.contr.Idx) :
    (dot_S512x384_S384x512_S512x512_1_0_0_1_n_n.rhsIdx i c 1).val = (i 1).val := by
  unfold DotDims.rhsIdx
  rw [dif_neg (show ¬(1 : Fin S384x512.rank) ∈ dot_S512x384_S384x512_S512x512_1_0_0_1_n_n.rhsBatch by decide),
    dif_pos (show (1 : Fin S384x512.rank) ∈ dot_S512x384_S384x512_S512x512_1_0_0_1_n_n.rhsNonContracting by decide)]
  rfl

/-- The product of x by its transpose into a zero accumulator reads, at (q, g), the inner product of rows q and g. -/
theorem gram_eq (x : FVec Ideal S512x384 .f32) (q g : Fin 512) :
    matmul (F := Ideal) dot_S512x384_S384x512_S512x512_1_0_0_1_n_n (some .fp32) x
        (transpose S384x512 [1, 0] x transposes_S512x384_p1_0_S384x512)
        (constant (F := Ideal) S512x512 .f32 0x00000000#32) (ix2 q g) = Cert.RankSpec.gram x q g := by
  unfold Cert.RankSpec.gram
  simp only [matmul]
  rw [Ideal.matmul_constant_zero_apply,
    ← Equiv.sum_comp (contrEquiv1 dot_S512x384_S384x512_S512x512_1_0_0_1_n_n 384 rfl rfl).symm]
  refine Finset.sum_congr rfl fun k _ => ?_
  have hk := contrEquiv1_symm_val dot_S512x384_S384x512_S512x512_1_0_0_1_n_n 384 rfl rfl k
  have el : dot_S512x384_S384x512_S512x512_1_0_0_1_n_n.lhsIdx (ix2 q g)
      ((contrEquiv1 dot_S512x384_S384x512_S512x512_1_0_0_1_n_n 384 rfl rfl).symm k) = ix2 q k :=
    funext fun a => Fin.ext (by
      match a with
      | ⟨0, _⟩ => exact lhs_row _ _
      | ⟨1, _⟩ => exact (lhs_col _ _).trans hk)
  have er : dot_S512x384_S384x512_S512x512_1_0_0_1_n_n.rhsIdx (ix2 q g)
      ((contrEquiv1 dot_S512x384_S384x512_S512x512_1_0_0_1_n_n 384 rfl rfl).symm k) = ix2 k g :=
    funext fun a => Fin.ext (by
      match a with
      | ⟨0, _⟩ => exact (rhs_row _ _).trans hk
      | ⟨1, _⟩ => exact rhs_col _ _)
  rw [el, er]
  exact congrArg (x (ix2 q k) * ·) (transpose_ix2_apply x transposes_S512x384_p1_0_S384x512 k g)

/-- The distance kernel's result is the array of all the rows' distances. -/
theorem pay_dist (x : Vec Ideal S512x384 .f32) : k0_pay1 (F := Ideal) x = Cert.RankSpec.distArr x := by
  funext i
  obtain ⟨q, g, rfl⟩ : ∃ (q g : Fin 512), i = ix2 q g := ⟨i 0, i 1, eq_ix2 i⟩
  unfold k0_pay1
  exact congrArg₂
    (fun s m => Ideal.sqrt (max (s - Ideal.ofBits .f32 0x40000000#32 * m) (Ideal.ofBits .f32 0x00000000#32)))
    (congrArg₂ (· + ·) ((bcast_col _ q g).trans (col_sq x q 0)) ((bcast_row _ q g).trans (col_sq x g 0)))
    (gram_eq x q g)

end Cert.KerPay

end
-- ==== Proof.KerArr.lean ====
/-
  From the kernels' blocks to the arrays they leave.

  The distance kernel runs on one grid point whose block is the whole array, so its array ends holding the
  distances of all rows. The rank kernel's output block (q-block, g-block) is visited at four consecutive
  points, one per block of 128 gallery entries: the first zeroes the block and adds its part of the soft
  ranks, each later one adds its own part, and after the fourth the block holds the whole soft ranks and
  is written back; the sixteen blocks written back tile the array.
-/
import proofs.«138343_j79577154060375_1_alg».proof.Proof.IdealBody0
import proofs.«138343_j79577154060375_1_alg».proof.Proof.IdealBody1
import proofs.«138343_j79577154060375_1_alg».proof.Proof.KerPay
import proofs.«138343_j79577154060375_1_alg».proof.Proof.RankSpec
import Idealize.ShloMosaic.Lib.Pipeline.Value
import Idealize.ShloMosaic.Lib.ValueIdx
import Idealize.ShloMosaic.Lib.Tactic

noncomputable section

open scoped BigOperators

namespace Cert.KerArr

open Cert.KernelIdeal Cert.KernelIdeal.Gen Cert.KernelIdeal.Launch
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The distance kernel's array -/

section Dist

variable {F : FTy → Type} [FloatOps F]

/-- The body's one store covers its buffer, so what it leaves is the stored distances of the loaded features. -/
theorem out0_eq (x0 : Vec F S512x384 .f32) : out0_1 x0 = k0_pay1 x0 := by
  unfold out0_1
  rw [View.canon_unit_zero hz]
  simp only [View.ld_unit_zero (S := S512x384) hz]

variable (V : (c : Dev nD) → (b : Ref sig .tc) → Buf (Elt F) ((c : Thread nD τ).loc b))

/-- The one point's feature block is the whole feature matrix. -/
theorem iblk0_eq (c : Dev nD) : iblk0 V c 0 t0_0 = V c main_arg0 := by
  unfold iblk0
  have hz' : (fun a => win0_0.index t0_0 a * main_arg0.ty.shape.size a) = fun _ => 0 :=
    funext fun a => by fin_cases a <;> decide
  exact Memref.read_access_unit_zero (Elt F) main_arg0 hz' (fun a => by rw [congrFun hz' a]; simp) (V c main_arg0)

end Dist

section DistIdeal

variable (V : (c : Dev nD) → (b : Ref sig .tc) → Buf (Elt Ideal) ((c : Thread nD τ).loc b))

/-- What the one point writes back is the whole array of distances, read through the whole-array block. -/
theorem flushed0_eq (c : Dev nD) (t : Fin cfg0.N) (hf : (cfg0.win 1).flush t = true) :
    (dat0 (F := Ideal) V c).flushed 1 t
      = ((cfg0.win 1).blk t).view.read (Elt Ideal) (Cert.RankSpec.distArr (V c main_arg0)) := by
  obtain rfl : t = t0_0 := fin_N0 t
  show (cfg0.win 1).cut (grid0.coords t0_0) ((dat0 V c).after 1 t0_0) = _
  rw [after0_1, out0_eq, iblk0_eq, Cert.KerPay.pay_dist]
  have hz' : (fun a => win0_1.index t0_0 a * main_v0.ty.shape.size a) = fun _ => 0 :=
    funext fun a => by fin_cases a <;> decide
  exact (Memref.read_access_unit_zero (Elt Ideal) main_v0 hz' (fun a => by rw [congrFun hz' a]; simp)
    (Cert.RankSpec.distArr (V c main_arg0))).symm

/-- The distance matrix's array after the region: the distances of all rows of the features it was entered with. -/
theorem arr0_eq (c : Dev nD) :
    (dat0 (F := Ideal) V c).arrAt 1 cfg0.N = Cert.RankSpec.distArr (V c main_arg0) :=
  (dat0 V c).arrAt_eq_of_cover 1 (Cert.RankSpec.distArr (V c main_arg0)) (flushed0_eq V c) fun i =>
    ⟨t0_0, flush0_1 t0_0, by
      show i ∈ ((View.whole main_v0).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_1.index t0_0 0 * win0_1.size 0 ≤ (i 0 : Nat)
          ∧ (i 0 : Nat) < win0_1.index t0_0 0 * win0_1.size 0 + win0_1.xsize (grid0.coords t0_0) 0
        rw [show win0_1.index t0_0 0 * win0_1.size 0 = 0 from by decide +kernel,
          show win0_1.xsize (grid0.coords t0_0) 0 = 512 from by decide +kernel]
        omega
      | ⟨1, _⟩ =>
        show win0_1.index t0_0 1 * win0_1.size 1 ≤ (i 1 : Nat)
          ∧ (i 1 : Nat) < win0_1.index t0_0 1 * win0_1.size 1 + win0_1.xsize (grid0.coords t0_0) 1
        rw [show win0_1.index t0_0 1 * win0_1.size 1 = 0 from by decide +kernel,
          show win0_1.xsize (grid0.coords t0_0) 1 = 512 from by decide +kernel]
        omega⟩

end DistIdeal

/-! ## The rank kernel's two cases as arithmetic -/

section RankCases

variable {F : FTy → Type} [FloatOps F]

/-- When the accumulator is kept, the body leaves the accumulator plus this block's sums. -/
theorem out1_B_eq (c : Dev nD) (i : grid1.Coords) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : ¬cond1_0 i) (x0 x1 xo : Vec F S128x128 .f32) :
    out1_B c i a3 h3 a4 h4 a5 h5 hc x0 x1 xo = k1_pay2 x0 x1 xo := by
  unfold out1_B
  rw [View.read_writes_eq_canon _ _ _ (cover1_B c i a3 h3 a4 h4 a5 h5 hc x0 x1 xo)]
  unfold kernelRun1_B
  dsimp only
  try sl_unfold_words
  rw [View.canon_unit_zero hz]
  simp only [View.readAt_eq_ld, h3.read_unread, h4.read_unread, h5.read_unread, View.ld_unit_zero (S := S128x128) hz]

/-- When the accumulator is zeroed first, the body leaves the zero block plus this block's sums. -/
theorem out1_A_eq (c : Dev nD) (i : grid1.Coords) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : cond1_0 i) (x0 x1 : Vec F S128x128 .f32) :
    out1_A c i a3 h3 a4 h4 a5 h5 hc x0 x1 = k1_pay2 x0 x1 k1_pay1 := by
  unfold out1_A
  rw [View.read_writes_eq_canon _ _ _ (cover1_A c i a3 h3 a4 h4 a5 h5 hc x0 x1)]
  unfold kernelRun1_A
  dsimp only
  try sl_unfold_words
  rw [View.canon_cons_unit_zero (S := S128x128) hz, View.readCov_unit_zero (S := S128x128) _ hz]
  simp only [View.readAt_eq_ld, h3.read_unread, h4.read_unread, View.ld_unit_zero (S := S128x128) hz]

end RankCases

/-! ## The rank kernel's array -/

/-- The row and the column of the array that point `n`'s output block holds at (p, r), and the block of gallery
    entries the point adds. -/
def rowOf (n : ℕ) (p : Fin 128) : Fin 512 := ⟨n / 16 % 4 * 128 + p.val, by have := p.isLt; omega⟩
def colOf (n : ℕ) (r : Fin 128) : Fin 512 := ⟨n / 4 % 4 * 128 + r.val, by have := r.isLt; omega⟩
def blkOf (n : ℕ) : Fin 4 := ⟨n % 4, Nat.mod_lt _ (by decide)⟩

/-- The three windows' block indices at every point of the 4 x 4 x 4 grid, checked at each of the 64 points. -/
theorem idx1 : ∀ t : Fin cfg1.N,
    win1_0.index t (0 : Fin 2) = t.val / 16 % 4 ∧ win1_0.index t (1 : Fin 2) = t.val / 4 % 4
    ∧ win1_1.index t (0 : Fin 2) = t.val / 16 % 4 ∧ win1_1.index t (1 : Fin 2) = t.val % 4
    ∧ win1_2.index t (0 : Fin 2) = t.val / 16 % 4 ∧ win1_2.index t (1 : Fin 2) = t.val / 4 % 4 :=
  (by decide +kernel : ∀ t : Fin grid1.N, _)

/-- The soft rank's parts added in order, from zero, up to gallery block `k`. -/
def partSum (d : Cert.RankSpec.SD.Idx → EReal) (q g : Fin 512) : ℕ → EReal
  | 0 => 0 + Cert.RankSpec.rankPart d q g 0
  | k + 1 => partSum d q g k + Cert.RankSpec.rankPart d q g (blkOf (k + 1))

/-- After the fourth block the parts make up the whole soft rank. -/
theorem partSum_three (d : Cert.RankSpec.SD.Idx → EReal) (q g : Fin 512) :
    partSum d q g 3 = Cert.RankSpec.rank d q g := by
  show ((((0 : EReal) + Cert.RankSpec.rankPart d q g 0) + Cert.RankSpec.rankPart d q g (blkOf 1))
    + Cert.RankSpec.rankPart d q g (blkOf 2)) + Cert.RankSpec.rankPart d q g (blkOf 3) = _
  exact Cert.KerPay.rank_blocks d q g

section RankBlocks

variable {F : FTy → Type} [FloatOps F]
variable (V : (c : Dev nD) → (b : Ref sig .tc) → Buf (Elt F) ((c : Thread nD τ).loc b))

/-- The first reading window's block at point `t` holds the distances of the point's rows to its columns. -/
theorem iblk1_0_apply (c : Dev nD) (t : Fin cfg1.N) (p r : Fin 128) :
    (iblk1 V c 0 t : Vec F S128x128 .f32) (ix2 p r)
      = (V c main_v0 : S512x512.Idx → Elt F .f32) (ix2 (rowOf t.val p) (colOf t.val r)) := by
  obtain ⟨e0, e1, -, -, -, -⟩ := idx1 t
  unfold iblk1
  rw [View.read_apply]
  show V c main_v0 _ = V c main_v0 _
  congr 1
  funext a
  apply Fin.ext
  match a with
  | ⟨0, _⟩ => show win1_0.index t 0 * 128 + 1 * p.val = t.val / 16 % 4 * 128 + p.val; rw [e0]; omega
  | ⟨1, _⟩ => show win1_0.index t 1 * 128 + 1 * r.val = t.val / 4 % 4 * 128 + r.val; rw [e1]; omega

/-- The second reading window's block holds the distances of the point's rows to its block of gallery entries. -/
theorem iblk1_1_apply (c : Dev nD) (t : Fin cfg1.N) (p j : Fin 128) :
    (iblk1 V c 1 t : Vec F S128x128 .f32) (ix2 p j)
      = (V c main_v0 : S512x512.Idx → Elt F .f32)
          (ix2 (rowOf t.val p) ⟨(blkOf t.val).val * 128 + j.val, by have := (blkOf t.val).isLt; have := j.isLt; omega⟩) := by
  obtain ⟨-, -, e0, e1, -, -⟩ := idx1 t
  unfold iblk1
  rw [View.read_apply]
  show V c main_v0 _ = V c main_v0 _
  congr 1
  funext a
  apply Fin.ext
  match a with
  | ⟨0, _⟩ => show win1_1.index t 0 * 128 + 1 * p.val = t.val / 16 % 4 * 128 + p.val; rw [e0]; omega
  | ⟨1, _⟩ => show win1_1.index t 1 * 128 + 1 * j.val = t.val % 4 * 128 + j.val; rw [e1]; omega

end RankBlocks

section RankIdeal

variable (V : (c : Dev nD) → (b : Ref sig .tc) → Buf (Elt Ideal) ((c : Thread nD τ).loc b))

/-- What point `t` adds at (p, r): the part of the soft rank its block of gallery entries contributes. -/
theorem step_sum (c : Dev nD) (t : Fin cfg1.N) (p r : Fin 128) :
    ∑ j : Fin 128, Cert.RankSpec.soft ((iblk1 V c 0 t : Vec Ideal S128x128 .f32) (ix2 p r))
        ((iblk1 V c 1 t : Vec Ideal S128x128 .f32) (ix2 p j))
      = Cert.RankSpec.rankPart (V c main_v0) (rowOf t.val p) (colOf t.val r) (blkOf t.val) := by
  unfold Cert.RankSpec.rankPart
  refine Finset.sum_congr rfl fun j _ => ?_
  exact congrArg₂ Cert.RankSpec.soft (iblk1_0_apply V c t p r) (iblk1_1_apply V c t p j)

/-- After point `n` the output's buffer holds, at (p, r), the parts of the soft rank of the point's row and column
    over the gallery blocks up to the point's own. -/
theorem outsAt1_eq (c : Dev nD) : ∀ (n : ℕ) (hn : n < cfg1.N) (p r : Fin 128),
    (outsAt1 (F := Ideal) V c n hn : Vec Ideal S128x128 .f32) (ix2 p r)
      = partSum (V c main_v0) (rowOf n p) (colOf n r) (n % 4)
  | 0, hn, p, r => by
    rw [outsAt1_A V c ⟨0, hn⟩ rfl, out1_A_eq]
    refine (Cert.KerPay.pay_acc _ _ _ p r).trans ?_
    rw [Cert.KerPay.pay_zero, step_sum V c ⟨0, hn⟩ p r]
    rfl
  | n + 1, hn, p, r => by
    by_cases h0 : (n + 1) % 4 = 0
    · rw [outsAt1_A V c ⟨n + 1, hn⟩ h0, out1_A_eq]
      refine (Cert.KerPay.pay_acc _ _ _ p r).trans ?_
      rw [Cert.KerPay.pay_zero, step_sum V c ⟨n + 1, hn⟩ p r, h0]
      have hb : blkOf (n + 1) = 0 := Fin.ext h0
      show _ + Cert.RankSpec.rankPart _ _ _ (blkOf (n + 1)) = _
      rw [hb]
      rfl
    · rw [outsAt1_B V c ⟨n + 1, hn⟩ h0, out1_B_eq]
      refine (Cert.KerPay.pay_acc _ _ _ p r).trans ?_
      rw [step_sum V c ⟨n + 1, hn⟩ p r]
      show (outsAt1 V c n _ : Vec Ideal S128x128 .f32) (ix2 p r) + Cert.RankSpec.rankPart _ (rowOf (n + 1) p) (colOf (n + 1) r) (blkOf (n + 1)) = _
      rw [outsAt1_eq c n _ p r]
      have hr : rowOf (n + 1) p = rowOf n p :=
        Fin.ext (by show (n + 1) / 16 % 4 * 128 + p.val = n / 16 % 4 * 128 + p.val; omega)
      have hc : colOf (n + 1) r = colOf n r :=
        Fin.ext (by show (n + 1) / 4 % 4 * 128 + r.val = n / 4 % 4 * 128 + r.val; omega)
      have hm : (n + 1) % 4 = n % 4 + 1 := by omega
      have hb : blkOf (n % 4 + 1) = blkOf (n + 1) := Fin.ext (by show (n % 4 + 1) % 4 = (n + 1) % 4; omega)
      rw [hr, hc, hm]
      show _ = partSum _ _ _ (n % 4) + Cert.RankSpec.rankPart _ _ _ (blkOf (n % 4 + 1))
      rw [hb]

/-- What a point that writes back (the fourth of its block) writes is its block of the array of soft ranks. -/
theorem flushed1_eq (c : Dev nD) (t : Fin cfg1.N) (hf : (cfg1.win 2).flush t = true) :
    (dat1 (F := Ideal) V c).flushed 2 t
      = ((cfg1.win 2).blk t).view.read (Elt Ideal) (Cert.RankSpec.rankArr (V c main_v0)) := by
  have h3 : t.val % 4 = 3 := (flush1_2 t).mp hf
  obtain ⟨-, -, -, -, e0, e1⟩ := idx1 t
  show (cfg1.win 2).cut (grid1.coords t) ((dat1 V c).after 2 t) = _
  rw [after1_2]
  funext y
  obtain ⟨p, r, rfl⟩ : ∃ (p r : Fin 128), y = (ix2 p r : S128x128.Idx) :=
    ⟨y 0, y 1, eq_ix2 (n0 := 128) (n1 := 128) y⟩
  show (outsAt1 V c t.val t.isLt : Vec Ideal S128x128 .f32) (ix2 p r) = _
  rw [outsAt1_eq V c t.val t.isLt p r, h3, partSum_three, View.read_apply]
  show Cert.RankSpec.rankArr (V c main_v0) (ix2 (rowOf t.val p) (colOf t.val r)) = Cert.RankSpec.rankArr (V c main_v0) _
  congr 1
  funext a
  apply Fin.ext
  match a with
  | ⟨0, _⟩ => show t.val / 16 % 4 * 128 + p.val = win1_2.index t 0 * 128 + 1 * p.val; rw [e0]; omega
  | ⟨1, _⟩ => show t.val / 4 % 4 * 128 + r.val = win1_2.index t 1 * 128 + 1 * r.val; rw [e1]; omega

/-- The rank matrix's array after the region: the soft ranks over the distance matrix it was entered with. -/
theorem arr1_eq (c : Dev nD) :
    (dat1 (F := Ideal) V c).arrAt 2 cfg1.N = Cert.RankSpec.rankArr (V c main_v0) :=
  (dat1 V c).arrAt_eq_of_cover 2 (Cert.RankSpec.rankArr (V c main_v0)) (flushed1_eq V c) fun i => by
    have hN : cfg1.N = 64 := N_1
    have h0 : (i 0 : Nat) < 512 := (i 0).isLt
    have h1 : (i 1 : Nat) < 512 := (i 1).isLt
    have hlt : 16 * ((i 0 : Nat) / 128) + 4 * ((i 1 : Nat) / 128) + 3 < cfg1.N := by rw [hN]; omega
    obtain ⟨-, -, -, -, e0, e1⟩ := idx1 ⟨_, hlt⟩
    have e0' : win1_2.index ⟨_, hlt⟩ (0 : Fin 2) = (16 * ((i 0 : Nat) / 128) + 4 * ((i 1 : Nat) / 128) + 3) / 16 % 4 := e0
    have e1' : win1_2.index ⟨_, hlt⟩ (1 : Fin 2) = (16 * ((i 0 : Nat) / 128) + 4 * ((i 1 : Nat) / 128) + 3) / 4 % 4 := e1
    refine ⟨⟨_, hlt⟩, (flush1_2 _).mpr (by show (16 * ((i 0 : Nat) / 128) + 4 * ((i 1 : Nat) / 128) + 3) % 4 = 3; omega), ?_⟩
    show i ∈ ((View.whole main_v1).slice (win1_2.rect ⟨_, hlt⟩)).set
    rw [View.set_slice_whole, Rect.mem_set_unit]
    intro a
    match a with
    | ⟨0, _⟩ =>
      show win1_2.index ⟨_, hlt⟩ 0 * 128 ≤ (i 0 : Nat) ∧ (i 0 : Nat) < win1_2.index ⟨_, hlt⟩ 0 * 128 + 128
      rw [e0']; omega
    | ⟨1, _⟩ =>
      show win1_2.index ⟨_, hlt⟩ 1 * 128 ≤ (i 1 : Nat) ∧ (i 1 : Nat) < win1_2.index ⟨_, hlt⟩ 1 * 128 + 128
      rw [e1']; omega

end RankIdeal

end Cert.KerArr

end
-- ==== Proof.Tail.lean ====
/-
  What both programs do with the matrix of soft ranks and the labels, as ONE function that is never opened:
  the mask of equal labels, the smooth step of (6 − rank), the masked row sums over 6, and one minus their mean.
  Both programs spell these host lines alike, so the two results are this function of equal arguments.
-/
import proofs.«138343_j79577154060375_1_alg».proof.KernelIdeal
import proofs.«138343_j79577154060375_1_alg».proof.Proof.Gen.KernelIdeal
import Idealize.ShloMosaic.PureOps.Ideal

noncomputable section

namespace Cert.Tail

open Idealize.ShloMosaic Idealize.SL.Sem Cert.KernelIdeal Cert.KernelIdeal.Facts₀ Cert.KernelIdeal.Facts

variable {F : FTy → Type} [FloatOps F]

/-- The host lines after the soft ranks: from the ranks `rk` and the labels `lab` to the scalar result. -/
def tail (rk : (⟨S512x512, .f32⟩ : BufTy).Contents (Elt F)) (lab : (⟨S512, .i32⟩ : BufTy).Contents (Elt F)) :
    (⟨S_, .f32⟩ : BufTy).Contents (Elt F) :=
  let v2 : (⟨S512x1, .i32⟩ : BufTy).Contents (Elt F) := broadcastInDim S512x1 ![0] bcast_S512_S512x1_0 lab
  let v3 : (⟨S1x512, .i32⟩ : BufTy).Contents (Elt F) := broadcastInDim S1x512 ![1] bcast_S512_S1x512_1 lab
  let v4 : (⟨S512x512, .i32⟩ : BufTy).Contents (Elt F) := broadcastInDim S512x512 ![0, 1] bcast_S512x1_S512x512_0_1 v2
  let v5 : (⟨S512x512, .i32⟩ : BufTy).Contents (Elt F) := broadcastInDim S512x512 ![0, 1] bcast_S1x512_S512x512_0_1 v3
  let v6 : (⟨S512x512, .i1⟩ : BufTy).Contents (Elt F) := cmpi .eq v4 v5
  let v7 : (⟨S512x512, .f32⟩ : BufTy).Contents (Elt F) := uitofp .f32 v6
  let cst : (⟨S_, .f32⟩ : BufTy).Contents (Elt F) := constant S_ .f32 0x40C00000#32
  let v8 : (⟨S512x512, .f32⟩ : BufTy).Contents (Elt F) := broadcastInDim S512x512 ![] bcast_S_S512x512 cst
  let v9 : (⟨S512x512, .f32⟩ : BufTy).Contents (Elt F) := subf v8 rk
  let cst_0 : (⟨S_, .f32⟩ : BufTy).Contents (Elt F) := constant S_ .f32 0x3F800000#32
  let v10 : (⟨S512x512, .f32⟩ : BufTy).Contents (Elt F) := broadcastInDim S512x512 ![] bcast_S_S512x512 cst_0
  let v11 : (⟨S512x512, .f32⟩ : BufTy).Contents (Elt F) := Host.divf v9 v10
  let v12 : (⟨S512x512, .f32⟩ : BufTy).Contents (Elt F) := Host.negf v11
  let v13 : (⟨S512x512, .f32⟩ : BufTy).Contents (Elt F) := Host.exp v12
  let v14 : (⟨S512x512, .f32⟩ : BufTy).Contents (Elt F) := broadcastInDim S512x512 ![] bcast_S_S512x512 cst_0
  let v15 : (⟨S512x512, .f32⟩ : BufTy).Contents (Elt F) := addf v14 v13
  let v16 : (⟨S512x512, .f32⟩ : BufTy).Contents (Elt F) := broadcastInDim S512x512 ![] bcast_S_S512x512 cst_0
  let v17 : (⟨S512x512, .f32⟩ : BufTy).Contents (Elt F) := Host.divf v16 v15
  let v18 : (⟨S512x512, .f32⟩ : BufTy).Contents (Elt F) := mulf v17 v7
  let cst_3 : (⟨S_, .f32⟩ : BufTy).Contents (Elt F) := constant S_ .f32 0x00000000#32
  let v19 : (⟨S512, .f32⟩ : BufTy).Contents (Elt F) := Host.reduceAdd v18 cst_3 reducesTo_S512x512_S512_d1 h_S_
  let v20 : (⟨S512, .f32⟩ : BufTy).Contents (Elt F) := broadcastInDim S512 ![] bcast_S_S512 cst
  let v21 : (⟨S512, .f32⟩ : BufTy).Contents (Elt F) := Host.divf v19 v20
  let v22 : (⟨S_, .f32⟩ : BufTy).Contents (Elt F) := ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)) v21 cst_3
  let cst_6 : (⟨S_, .f32⟩ : BufTy).Contents (Elt F) := constant S_ .f32 0x44000000#32
  let v23 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) v22 cst_6
  let v24 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) cst_0 v23
  v24

end Cert.Tail

end
-- ==== Proof.KerTail.lean ====
/-
  The kernel program's host lines after its two regions, read off the last valuation.

  After the second region the buffer of soft ranks holds what that region left there; the thirty-two host lines
  that follow compute, from it and the labels, the mask of equal labels, the smooth step of (6 − rank), the masked
  row sums over 6, and one minus their mean. Composed, they are the common tail applied to the ranks and the labels.
  No region and no host line writes an argument, so each argument is read as launched.
-/
import proofs.«138343_j79577154060375_1_alg».proof.Proof.Gen.KernelIdeal.Regions
import proofs.«138343_j79577154060375_1_alg».proof.Proof.Tail
import Idealize.ShloMosaic.Lib.StableHlo.Run

noncomputable section

namespace Cert.KerTail

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (outs : Gen.Outs (F := F)) (c : Dev nD)

/-- The result buffer after the last host line is the common tail of what the second region left in the buffer of
    soft ranks and of the labels: each line's result is its function of its operands' contents, and the composed
    term is the tail line by line. -/
theorem V3_result :
    Gen.V3 m outs c main_v24 = Cert.Tail.tail (F := F) (Gen.V2 m outs c main_v1) (Gen.V2 m outs c main_arg1) := by
  show StableHlo.after hostOps2 (Gen.V2 m outs c) (Proc.devRef .tc main_v24) = _
  after_results
  rfl

/-- The labels are unchanged by the two regions. -/
theorem V2_arg1 : Gen.V2 m outs c main_arg1 = m ((c : Thread nD τ).loc main_arg1) :=
  (Gen.V2_of m outs c main_arg1 (by decide)).trans <| (Gen.V1_of m outs c main_arg1 (by decide)).trans rfl

/-- The feature matrix is unchanged by the two regions. -/
theorem V2_arg0 : Gen.V2 m outs c main_arg0 = m ((c : Thread nD τ).loc main_arg0) :=
  (Gen.V2_of m outs c main_arg0 (by decide)).trans <| (Gen.V1_of m outs c main_arg0 (by decide)).trans rfl

/-- The feature matrix is unchanged by the first region. -/
theorem V1_arg0 : Gen.V1 m outs c main_arg0 = m ((c : Thread nD τ).loc main_arg0) :=
  (Gen.V1_of m outs c main_arg0 (by decide)).trans rfl

end Cert.KerTail

end
-- ==== Proof.KerResult.lean ====
/-
  The idealized kernel program's result as one function of its arguments: after the run the result buffer holds the
  host lines' function of the rank matrix and the labels; the rank matrix is the soft ranks of the distance matrix the
  first region left; and that is the distances of the feature matrix.
-/
import proofs.«138343_j79577154060375_1_alg».proof.Proof.IdealRun
import proofs.«138343_j79577154060375_1_alg».proof.Proof.KerArr
import proofs.«138343_j79577154060375_1_alg».proof.Proof.KerTail
import proofs.«138343_j79577154060375_1_alg».proof.Proof.RankSpec
import proofs.«138343_j79577154060375_1_alg».proof.Proof.Tail

noncomputable section

namespace Cert.KernelIdeal.Result

open Cert.KernelIdeal Cert.KernelIdeal.Gen Cert.KernelIdeal.Launch
open Idealize.ShloMosaic Idealize.ShloMosaic.TcCoe Idealize.SL.Sem

variable (m : (ℓ : Loc nD τ sig) → Buf (Elt Ideal) ℓ) (ρ : Dev nD → PrngReg)

/-- The last valuation at the result: the tail of the soft ranks of the distances of the features, and the labels. -/
theorem result_eq (c : Dev nD) :
    Gen.V3 m (outs m) c main_v24
      = Cert.Tail.tail (F := Ideal) (Cert.RankSpec.rankArr (Cert.RankSpec.distArr (m ((c : Thread nD τ).loc main_arg0))))
          (m ((c : Thread nD τ).loc main_arg1)) := by
  rw [Cert.KerTail.V3_result, Cert.KerTail.V2_arg1, V2_v1]
  unfold X1
  rw [Cert.KerArr.arr1_eq]
  show Cert.Tail.tail (F := Ideal) (Cert.RankSpec.rankArr (Function.update (Gen.V0 m c) main_v0 (X0 m c) main_v0)) _ = _
  rw [Function.update_self]
  unfold X0
  rw [Cert.KerArr.arr0_eq]

/-- The idealized kernel program runs, ends with that result, and leaves its arguments as launched. -/
theorem run_value : θ_run (defs (F := Ideal)) (onTc (τ := τ) (main (F := Ideal))) ⟨m, fun _ => 0, ρ⟩ (fun r => ∀ c : Dev nD,
      r.2.mem ((c.tc : Thread nD τ).loc main_v24)
        = Cert.Tail.tail (F := Ideal) (Cert.RankSpec.rankArr (Cert.RankSpec.distArr (m ((c.tc : Thread nD τ).loc main_arg0))))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v24 (by decide))).trans (result_eq m c),
     (h c _ (mem_uc main_arg0 (by decide))).trans (Gen.V3_main_arg0 m (outs m) c),
     (h c _ (mem_uc main_arg1 (by decide))).trans (Gen.V3_main_arg1 m (outs m) c)⟩) (run_all (F := Ideal) m ρ)

end Cert.KernelIdeal.Result

end
-- ==== Proof.RefRank.lean ====
/-
  The reference program, read index by index, is the specification.

  Its first stages form the matrix of Euclidean distances of the rows of x by the Gram identity,
      d[q,g] = √ max (|x_q|² + |x_g|² − 2·⟨x_q, x_g⟩, 0),
  its middle stages the soft ranks
      r[q,g] = Σ_g' 1 / (1 + exp (−(d[q,g] − d[q,g'])/c)),
  spelled as negate, exponential, add one, divide one: the logistic function once the word of 1.0 is read as the
  extended real one. Every broadcast only renames an index, so each stage at an index is the specification's
  function at the index's coordinates; the sums agree term by term. The lines after the ranks are the same in both
  programs and are never opened.
-/
import proofs.«138343_j79577154060375_1_alg».proof.Proof.Gen.ReferenceIdeal.Read
import proofs.«138343_j79577154060375_1_alg».proof.Proof.RankSpec
import proofs.«138343_j79577154060375_1_alg».proof.Proof.Tail
import Idealize.ShloMosaic.PureOps.Ideal
import Idealize.ShloMosaic.PureOps.Ideal.Laws
import Idealize.ShloMosaic.Lib.ValueIdx
import Idealize.ShloMosaic.Lib.IdealHost

noncomputable section

namespace Cert.RefRank

open Idealize.ShloMosaic Idealize.ShloMosaic.ValueIdx Idealize.ShloMosaic.TcCoe Idealize.SL.Sem
open Cert.ReferenceIdeal Cert.ReferenceIdeal.Gen Cert.ReferenceIdeal.Read

/-! ## The distances -/

/-- The reduce over the columns of x∘x at row `q` is the squared length of row `q` (its initial value is zero). -/
theorem sq_at (x0 : (⟨S512x384, .f32⟩ : BufTy).Contents (Elt Ideal)) (q : Fin 512) :
    val_main_v1 (F := Ideal) x0 (ix1 q) = Cert.RankSpec.sq x0 q := by
  rw [val_main_v1_apply, val_main_cst_apply, Ideal.ofBits_def, Ideal.ofBits_zero_f32, zero_add]
  unfold Cert.RankSpec.sq
  refine Finset.sum_congr rfl fun k _ => ?_
  rw [val_main_v0_apply, Ideal.mulf_def]
  have e : idx_main_v1 (ix1 q) k = ix2 q k :=
    funext fun a => Fin.ext (by match a with | ⟨0, _⟩ => rfl | ⟨1, _⟩ => rfl)
  rw [e]

/-- The product of x with its transpose at `(q, g)` is the inner product of rows `q` and `g`. -/
theorem gram_at (x0 : (⟨S512x384, .f32⟩ : BufTy).Contents (Elt Ideal)) (q g : Fin 512) :
    val_main_v8 (F := Ideal) x0 (ix2 q g) = Cert.RankSpec.gram x0 q g := by
  rw [val_main_v8_apply]
  unfold Cert.RankSpec.gram
  refine Finset.sum_congr rfl fun k _ => ?_
  rw [val_main_v7_apply]
  have el : lidx_main_v8 (ix2 q g) k = ix2 q k :=
    funext fun a => Fin.ext (by match a with | ⟨0, _⟩ => rfl | ⟨1, _⟩ => rfl)
  have er : idx_main_v7 (ridx_main_v8 (ix2 q g) k) = ix2 g k :=
    funext fun a => Fin.ext (by match a with | ⟨0, _⟩ => rfl | ⟨1, _⟩ => rfl)
  rw [el, er]

/-- The root of the clamped Gram identity at `(q, g)` is the distance of rows `q` and `g`: the column broadcast
    reads the squared length of row `q`, the row broadcast that of row `g`. -/
theorem dist_at (x0 : (⟨S512x384, .f32⟩ : BufTy).Contents (Elt Ideal)) (q g : Fin 512) :
    val_main_v14 (F := Ideal) x0 (ix2 q g) = Cert.RankSpec.dist x0 q g := by
  have e4 : idx_main_v2 (idx_main_v4 (ix2 q g)) = ix1 q :=
    funext fun a => Fin.ext (by match a with | ⟨0, _⟩ => rfl)
  have e5 : idx_main_v3 (idx_main_v5 (ix2 q g)) = ix1 g :=
    funext fun a => Fin.ext (by match a with | ⟨0, _⟩ => rfl)
  rw [val_main_v14_apply, val_main_v13_apply, val_main_v11_apply, val_main_v6_apply,
    val_main_v4_apply, val_main_v2_apply, e4, sq_at,
    val_main_v5_apply, val_main_v3_apply, e5, sq_at,
    val_main_v10_apply, val_main_v9_apply, val_main_cst_0_apply, gram_at,
    val_main_v12_apply, val_main_cst_1_apply]
  rfl

/-- The reference's distance stage is the specification's array of distances. -/
theorem ref_dist (x0 : (⟨S512x384, .f32⟩ : BufTy).Contents (Elt Ideal)) :
    val_main_v14 (F := Ideal) x0 = Cert.RankSpec.distArr x0 := by
  funext i
  obtain ⟨q, g, rfl⟩ : ∃ (q : Fin 512) (g : Fin 512), i = ix2 q g := ⟨i 0, i 1, eq_ix2 i⟩
  exact dist_at x0 q g

/-! ## The soft ranks -/

/-- One summand of the rank stage, at `(q, g', g)`: the two broadcasts of the distances read `d[q,g]` and `d[q,g']`,
    and negate, exponential, add one, divide one of their difference over c is the logistic function of it. -/
theorem soft_at (x0 : (⟨S512x384, .f32⟩ : BufTy).Contents (Elt Ideal)) (q g' g : Fin 512) :
    val_main_v33 (F := Ideal) x0 (ix3 q g' g)
      = Cert.RankSpec.soft (val_main_v14 (F := Ideal) x0 (ix2 q g)) (val_main_v14 (F := Ideal) x0 (ix2 q g')) := by
  have e23 : idx_main_v21 (idx_main_v23 (ix3 q g' g)) = ix2 q g :=
    funext fun a => Fin.ext (by match a with | ⟨0, _⟩ => rfl | ⟨1, _⟩ => rfl)
  have e24 : idx_main_v22 (idx_main_v24 (ix3 q g' g)) = ix2 q g' :=
    funext fun a => Fin.ext (by match a with | ⟨0, _⟩ => rfl | ⟨1, _⟩ => rfl)
  rw [val_main_v33_apply, val_main_v32_apply, val_main_cst_4_apply, val_main_v31_apply, val_main_v30_apply,
    val_main_cst_3_apply, val_main_v29_apply, val_main_v28_apply, val_main_v27_apply, val_main_v25_apply,
    val_main_v23_apply, val_main_v21_apply, e23, val_main_v24_apply, val_main_v22_apply, e24,
    val_main_v26_apply, val_main_cst_2_apply]
  simp only [Ideal.ofBits_def, Ideal.ofBits_one_f32]
  rfl

/-- The reduce over the middle axis at `(q, g)` is the soft rank of `g` among the gallery of `q` (its initial value
    is zero). -/
theorem rank_at (x0 : (⟨S512x384, .f32⟩ : BufTy).Contents (Elt Ideal)) (q g : Fin 512) :
    val_main_v34 (F := Ideal) x0 (ix2 q g) = Cert.RankSpec.rank (val_main_v14 (F := Ideal) x0) q g := by
  rw [val_main_v34_apply, val_main_cst_5_apply, Ideal.ofBits_def, Ideal.ofBits_zero_f32, zero_add]
  unfold Cert.RankSpec.rank
  refine Finset.sum_congr rfl fun k _ => ?_
  have e : idx_main_v34 (ix2 q g) k = ix3 q k g :=
    funext fun a => Fin.ext (by match a with | ⟨0, _⟩ => rfl | ⟨1, _⟩ => rfl | ⟨2, _⟩ => rfl)
  rw [e, soft_at]

/-- The reference's rank stage is the specification's array of soft ranks of the specification's distances. -/
theorem ref_rank (x0 : (⟨S512x384, .f32⟩ : BufTy).Contents (Elt Ideal)) :
    val_main_v34 (F := Ideal) x0 = Cert.RankSpec.rankArr (Cert.RankSpec.distArr x0) := by
  rw [← ref_dist x0]
  funext i
  obtain ⟨q, g, rfl⟩ : ∃ (q : Fin 512) (g : Fin 512), i = ix2 q g := ⟨i 0, i 1, eq_ix2 i⟩
  exact rank_at x0 q g

/-! ## The lines after the ranks, and the run -/

/-- The reference's last stage is the common tail of host lines, applied to its rank stage and the labels: line by
    line the two are the same operations of the same operands. -/
theorem ref_tail (x0 : (⟨S512x384, .f32⟩ : BufTy).Contents (Elt Ideal)) (x1 : (⟨S512, .i32⟩ : BufTy).Contents (Elt Ideal)) :
    val_main_v51 (F := Ideal) x0 x1 = Cert.Tail.tail (F := Ideal) (val_main_v34 (F := Ideal) x0) x1 := rfl

/-- Every run of the reference ends with its result at the tail of the soft ranks of the distances of the first
    argument's rows and the labels, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
        = Cert.Tail.tail (F := Ideal) (Cert.RankSpec.rankArr (Cert.RankSpec.distArr (m ((c.tc : Thread nD τ).loc main_arg0))))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run (F := Ideal) m ρ)
  rw [val_main_v51_eq, ref_tail, ref_rank]

end Cert.RefRank

end
-- ==== Proof.lean ====
/-
  The certificate: a pairwise-distance kernel followed by a soft-rank kernel against the plain array program.

  Both programs compute, over the extended reals,
    d[q,g]    = √ max (|x_q|² + |x_g|² − 2·⟨x_q, x_g⟩, 0),
    rank[q,g] = Σ_g' 1 / (1 + exp (−(d[q,g] − d[q,g'])/c)),
  and then the same host lines over the ranks and the labels. The kernel forms the distances in one grid point and the
  ranks block by block, adding four blocks of 128 gallery entries onto a zeroed accumulator; the array program sums all
  512 at once. A finite sum in the commutative monoid of the extended reals does not depend on its grouping, so the two
  results are one function of equal arguments, and no finiteness of the inputs is used.
  The three frames: each kernel program as the launch of its two regions and its host lines (the second region's two
  reading windows share the distance matrix, half a share each); the array program's is its run with the result dropped.
  The idealization rewrote nothing, so that conjunct is trivial.
-/
import proofs.«138343_j79577154060375_1_alg».proof.Defs
import proofs.«138343_j79577154060375_1_alg».proof.Proof.Gen.Kernel
import proofs.«138343_j79577154060375_1_alg».proof.Proof.Gen.KernelIdeal
import proofs.«138343_j79577154060375_1_alg».proof.Proof.Gen.ReferenceIdeal
import proofs.«138343_j79577154060375_1_alg».proof.Proof.Gen.Pre_finite_inputs
import proofs.«138343_j79577154060375_1_alg».proof.Proof.Gen.ReferenceIdeal.Read
import proofs.«138343_j79577154060375_1_alg».proof.Proof.BitsRun
import proofs.«138343_j79577154060375_1_alg».proof.Proof.IdealRun
import proofs.«138343_j79577154060375_1_alg».proof.Proof.KerResult
import proofs.«138343_j79577154060375_1_alg».proof.Proof.RefRank
import Idealize.ShloMosaic.Adequacy
import Idealize.ShloMosaic.Init

noncomputable section

namespace Cert.Proof

open Idealize.ShloMosaic Idealize.SL.Sem

/-- The word-level kernel program runs and leaves its arguments as launched. -/
theorem frame_p : Cert.frame_Kernel := fun m ρ _ => Cert.Kernel.Launch.frame m ρ

/-- So does the idealized kernel program. -/
theorem frame_pi : Cert.frame_KernelIdeal := fun m ρ _ => Cert.KernelIdeal.Launch.frame m ρ

/-- The array program's frame is its run with the result dropped. -/
theorem frame_ri : Cert.frame_ReferenceIdeal := fun m ρ _ =>
  (θ_run Cert.ReferenceIdeal.defs _ _).mono (fun _ h c => (h c).2) (Cert.RefRank.run_spec m ρ)

/-- The idealization rewrote no operation. -/
theorem preserves : Cert.preserves_Kernel_KernelIdeal := trivial

/-- Both idealized programs end at the host lines' function of the soft ranks of the distances of the features, and of the
    labels; the arguments agree, so the results are equal. -/
theorem algebraic : Cert.algebraic_KernelIdeal_ReferenceIdeal := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.RefRank.run_spec m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
